-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x131072 : Shape := ⟨2, ![2, 131072]⟩
abbrev S512x256 : Shape := ⟨2, ![512, 256]⟩
abbrev S512 : Shape := ⟨1, ![512]⟩
abbrev S128x512 : Shape := ⟨2, ![128, 512]⟩
abbrev S128 : Shape := ⟨1, ![128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S512 .f32) (main_arg6 : FVec F S128x512 .f32) (main_arg7 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S128x512 .f32 := Host.absf main_arg6
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8192x256 .f32) (main_arg1 : IVec S2x131072 32) (main_arg2 : FVec F S512x256 .f32) (main_arg3 : FVec F S512 .f32) (main_arg4 : FVec F S512 .f32) (main_arg5 : FVec F S512 .f32) (main_arg6 : FVec F S128x512 .f32) (main_arg7 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_v13 main_v16
-- ==== Kernel.lean ====
abbrev S8192x256 : Shape := ⟨2, ![8192, 256]⟩
abbrev S2x131072 : Shape := ⟨2, ![2, 131072]⟩
abbrev S512x256 : Shape := ⟨2, ![512, 256]⟩
abbrev S512 : Shape := ⟨1, ![512]⟩
abbrev S128x512 : Shape := ⟨2, ![128, 512]⟩
abbrev S128 : Shape := ⟨1, ![128]⟩
abbrev S256x512 : Shape := ⟨2, ![256, 512]⟩
abbrev S512x128 : Shape := ⟨2, ![512, 128]⟩
abbrev S1x512 : Shape := ⟨2, ![1, 512]⟩
abbrev S1x128 : Shape := ⟨2, ![1, 128]⟩
abbrev S8192x512 : Shape := ⟨2, ![8192, 512]⟩
abbrev S_ : Shape := ⟨0, ![]⟩
abbrev S8192x128 : Shape := ⟨2, ![8192, 128]⟩
abbrev S8192x8192 : Shape := ⟨2, ![8192, 8192]⟩
abbrev S1x131072 : Shape := ⟨2, ![1, 131072]⟩
abbrev S131072 : Shape := ⟨1, ![131072]⟩
abbrev S131072x1 : Shape := ⟨2, ![131072, 1]⟩
abbrev S131072x2 : Shape := ⟨2, ![131072, 2]⟩
abbrev S1024x256 : Shape := ⟨2, ![1024, 256]⟩
abbrev S1024x512 : Shape := ⟨2, ![1024, 512]⟩
abbrev S1024x128 : Shape := ⟨2, ![1024, 128]⟩
abbrev S2048x128 : Shape := ⟨2, ![2048, 128]⟩
abbrev S512x2048 : Shape := ⟨2, ![512, 2048]⟩
abbrev S512x1 : Shape := ⟨2, ![512, 1]⟩
abbrev S1x2048 : Shape := ⟨2, ![1, 2048]⟩

abbrev nBuf : Space → Nat
  | .hbm => 75
  | .vmem => 22
  | .smem => 0
  | _ => 0

abbrev bufTy : (tb : Table) → Fin (tcTables nBuf tb) → BufTy
  | .hbm, ⟨0, _⟩ => ⟨S8192x256, .f32⟩
  | .hbm, ⟨1, _⟩ => ⟨S2x131072, .i32⟩
  | .hbm, ⟨2, _⟩ => ⟨S512x256, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S128x512, .f32⟩
  | .hbm, ⟨7, _⟩ => ⟨S128, .f32⟩
  | .hbm, ⟨8, _⟩ => ⟨S256x512, .f32⟩
  | .hbm, ⟨9, _⟩ => ⟨S512x128, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x128, .f32⟩
  | .hbm, ⟨14, _⟩ => ⟨S8192x512, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S_, .i32⟩
  | .hbm, ⟨21, _⟩ => ⟨S_, .f32⟩
  | .hbm, ⟨22, _⟩ => ⟨S512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S512, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S1x512, .f32⟩
  | .hbm, ⟨48, _⟩ => ⟨S1x512, .f32⟩
  | .hbm, ⟨49, _⟩ => ⟨S8192x128, .f32⟩
  | .hbm, ⟨50, _⟩ => ⟨S8192x8192, .f32⟩
  | .hbm, ⟨51, _⟩ => ⟨S1x131072, .i32⟩
  | .hbm, ⟨52, _⟩ => ⟨S131072, .i32⟩
  | .hbm, ⟨53, _⟩ => ⟨S1x131072, .i32⟩
  | .hbm, ⟨54, _⟩ => ⟨S131072, .i32⟩
  | .hbm, ⟨55, _⟩ => ⟨S_, .i32⟩
  | .hbm, ⟨56, _⟩ => ⟨S131072, .i32⟩
  | .hbm, ⟨57, _⟩ => ⟨S131072, .i1⟩
  | .hbm, ⟨58, _⟩ => ⟨S_, .i32⟩
  | .hbm, ⟨59, _⟩ => ⟨S131072, .i32⟩
  | .hbm, ⟨60, _⟩ => ⟨S131072, .i32⟩
  | .hbm, ⟨61, _⟩ => ⟨S131072, .i32⟩
  | .hbm, ⟨62, _⟩ => ⟨S_, .i32⟩
  | .hbm, ⟨63, _⟩ => ⟨S131072, .i32⟩
  | .hbm, ⟨64, _⟩ => ⟨S131072, .i1⟩
  | .hbm, ⟨65, _⟩ => ⟨S_, .i32⟩
  | .hbm, ⟨66, _⟩ => ⟨S131072, .i32⟩
  | .hbm, ⟨67, _⟩ => ⟨S131072, .i32⟩
  | .hbm, ⟨68, _⟩ => ⟨S131072, .i32⟩
  | .hbm, ⟨69, _⟩ => ⟨S131072x1, .i32⟩
  | .hbm, ⟨70, _⟩ => ⟨S131072x1, .i32⟩
  | .hbm, ⟨71, _⟩ => ⟨S131072x2, .i32⟩
  | .hbm, ⟨72, _⟩ => ⟨S_, .f32⟩
  | .hbm, ⟨73, _⟩ => ⟨S131072, .f32⟩
  | .hbm, ⟨74, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x128, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S512x128, .f32⟩
  | .local _ .vmem, ⟨17, _⟩ => ⟨S512x128, .f32⟩
  | .local _ .vmem, ⟨18, _⟩ => ⟨S2048x128, .f32⟩
  | .local _ .vmem, ⟨19, _⟩ => ⟨S2048x128, .f32⟩
  | .local _ .vmem, ⟨20, _⟩ => ⟨S512x2048, .f32⟩
  | .local _ .vmem, ⟨21, _⟩ => ⟨S512x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst : Ref sig .tc := ⟨.hbm, 15, rfl⟩
abbrev main_call0_v7 : Ref sig .tc := ⟨.hbm, 16, rfl⟩
abbrev main_call0_cst_0 : Ref sig .tc := ⟨.hbm, 17, rfl⟩
abbrev main_call0_v8 : Ref sig .tc := ⟨.hbm, 18, rfl⟩
abbrev main_call0_v9 : Ref sig .tc := ⟨.hbm, 19, rfl⟩
abbrev main_call0_c : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_cst_0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_cst_1 : Ref sig .tc := ⟨.hbm, 31, rfl⟩
abbrev main_call0_call0_v8 : Ref sig .tc := ⟨.hbm, 32, rfl⟩
abbrev main_call0_call0_cst_2 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_cst_3 : Ref sig .tc := ⟨.hbm, 37, rfl⟩
abbrev main_call0_call0_v12 : Ref sig .tc := ⟨.hbm, 38, rfl⟩
abbrev main_call0_call0_cst_4 : Ref sig .tc := ⟨.hbm, 39, rfl⟩
abbrev main_call0_call0_call0_v0 : Ref sig .tc := ⟨.hbm, 40, rfl⟩
abbrev main_call0_call0_call0_v1 : Ref sig .tc := ⟨.hbm, 41, rfl⟩
abbrev main_call0_v10 : Ref sig .tc := ⟨.hbm, 42, rfl⟩
abbrev main_call0_cst_1 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_v15 : Ref sig .tc := ⟨.hbm, 48, rfl⟩
abbrev main_call0_v16 : Ref sig .tc := ⟨.hbm, 49, rfl⟩
abbrev main_call0_v17 : Ref sig .tc := ⟨.hbm, 50, rfl⟩
abbrev main_call0_v18 : Ref sig .tc := ⟨.hbm, 51, rfl⟩
abbrev main_call0_v19 : Ref sig .tc := ⟨.hbm, 52, rfl⟩
abbrev main_call0_v20 : Ref sig .tc := ⟨.hbm, 53, rfl⟩
abbrev main_call0_v21 : Ref sig .tc := ⟨.hbm, 54, rfl⟩
abbrev main_call0_c_2 : Ref sig .tc := ⟨.hbm, 55, rfl⟩
abbrev main_call0_v22 : Ref sig .tc := ⟨.hbm, 56, rfl⟩
abbrev main_call0_v23 : Ref sig .tc := ⟨.hbm, 57, rfl⟩
abbrev main_call0_c_3 : Ref sig .tc := ⟨.hbm, 58, rfl⟩
abbrev main_call0_v24 : Ref sig .tc := ⟨.hbm, 59, rfl⟩
abbrev main_call0_v25 : Ref sig .tc := ⟨.hbm, 60, rfl⟩
abbrev main_call0_v26 : Ref sig .tc := ⟨.hbm, 61, rfl⟩
abbrev main_call0_c_4 : Ref sig .tc := ⟨.hbm, 62, rfl⟩
abbrev main_call0_v27 : Ref sig .tc := ⟨.hbm, 63, rfl⟩
abbrev main_call0_v28 : Ref sig .tc := ⟨.hbm, 64, rfl⟩
abbrev main_call0_c_5 : Ref sig .tc := ⟨.hbm, 65, rfl⟩
abbrev main_call0_v29 : Ref sig .tc := ⟨.hbm, 66, rfl⟩
abbrev main_call0_v30 : Ref sig .tc := ⟨.hbm, 67, rfl⟩
abbrev main_call0_v31 : Ref sig .tc := ⟨.hbm, 68, rfl⟩
abbrev main_call0_v32 : Ref sig .tc := ⟨.hbm, 69, rfl⟩
abbrev main_call0_v33 : Ref sig .tc := ⟨.hbm, 70, rfl⟩
abbrev main_call0_v34 : Ref sig .tc := ⟨.hbm, 71, rfl⟩
abbrev main_call0_cst_6 : Ref sig .tc := ⟨.hbm, 72, rfl⟩
abbrev main_call0_v35 : Ref sig .tc := ⟨.hbm, 73, rfl⟩
abbrev main_v0 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  transposes_S512x256_S256x512_1_0 : S512x256.Transposes [1, 0] S256x512
  transposes_S128x512_S512x128_1_0 : S128x512.Transposes [1, 0] S512x128
  shapeCasts_S512_S1x512 : S512.ShapeCasts S1x512
  shapeCasts_S128_S1x128 : S128.ShapeCasts S1x128
  reducesTo_S8192x512_S512_d0 : S8192x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S8192x512_0_1 : S1x512.BroadcastsInDim S8192x512 (![0, 1] : Fin 2 → Fin S8192x512.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  inb_S1024x256_S1024x256_0_0 : ∀ a, (![0, 0] : Fin 2 → Nat) a + S1024x256.size a ≤ S1024x256.size a
  h_S1024x256 : 0 < S1024x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S512x1_d0_w32 : S512x1.Iotas .tc 32 [0]
  iota_S1x2048_d1_w32 : S1x2048.Iotas .tc 32 [1]
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  scatter_S8192x8192_S131072x2_S131072_n_01_01_1_wf : ScatterDims.WF S8192x8192 S131072x2 S131072 [] [0, 1] [0, 1] 1
  dot_S1024x256_S256x512_S1024x512_1_0_0_1_n_n_wf : DotDims.WF S1024x256 S256x512 S1024x512 [1] [0] [0] [1] [] []
  dot_S1024x512_S512x128_S1024x128_1_0_0_1_n_n_wf : DotDims.WF S1024x512 S512x128 S1024x128 [1] [0] [0] [1] [] []
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .f32 = 32 ∨ (Rect.block (s := S512x128) S512x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S8192x128.size a
  hwx1_7 : ∀ i : grid1.Coords, EltTy.bits .f32 = 32 ∨ (Rect.block (s := S8192x128) S1024x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S8192x128.size a
  hwx2_0 : ∀ i : grid2.Coords, EltTy.bits .f32 = 32 ∨ (Rect.block (s := S8192x128) S512x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S8192x8192.size a
  hwx2_2 : ∀ i : grid2.Coords, EltTy.bits .f32 = 32 ∨ (Rect.block (s := S8192x8192) S512x2048.size (cc2_transform_2 i) (hinb2_2 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v6) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v14) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v15) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v4) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v1) S512x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v5) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v16) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_call0_v16) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v16) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v17) S512x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x256 : Shape := ⟨2, ![8192, 256]⟩
abbrev S2x131072 : Shape := ⟨2, ![2, 131072]⟩
abbrev S512x256 : Shape := ⟨2, ![512, 256]⟩
abbrev S512 : Shape := ⟨1, ![512]⟩
abbrev S128x512 : Shape := ⟨2, ![128, 512]⟩
abbrev S128 : Shape := ⟨1, ![128]⟩
abbrev S256x512 : Shape := ⟨2, ![256, 512]⟩
abbrev S8192x512 : Shape := ⟨2, ![8192, 512]⟩
abbrev S1x512 : Shape := ⟨2, ![1, 512]⟩
abbrev S_ : Shape := ⟨0, ![]⟩
abbrev S512x128 : Shape := ⟨2, ![512, 128]⟩
abbrev S8192x128 : Shape := ⟨2, ![8192, 128]⟩
abbrev S1x128 : Shape := ⟨2, ![1, 128]⟩
abbrev S128x8192 : Shape := ⟨2, ![128, 8192]⟩
abbrev S8192x8192 : Shape := ⟨2, ![8192, 8192]⟩
abbrev S1x131072 : Shape := ⟨2, ![1, 131072]⟩
abbrev S131072 : Shape := ⟨1, ![131072]⟩
abbrev S131072x1 : Shape := ⟨2, ![131072, 1]⟩
abbrev S131072x2 : Shape := ⟨2, ![131072, 2]⟩

abbrev nBuf : Space → Nat
  | .hbm => 117
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2x131072, .i32⟩
  | .hbm, ⟨2, _⟩ => ⟨S512x256, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S128x512, .f32⟩
  | .hbm, ⟨7, _⟩ => ⟨S128, .f32⟩
  | .hbm, ⟨8, _⟩ => ⟨S256x512, .f32⟩
  | .hbm, ⟨9, _⟩ => ⟨S8192x512, .f32⟩
  | .hbm, ⟨10, _⟩ => ⟨S1x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .i32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S1x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S1x512, .f32⟩
  | .hbm, ⟨49, _⟩ => ⟨S8192x512, .f32⟩
  | .hbm, ⟨50, _⟩ => ⟨S8192x512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S512x128, .f32⟩
  | .hbm, ⟨61, _⟩ => ⟨S8192x128, .f32⟩
  | .hbm, ⟨62, _⟩ => ⟨S1x128, .f32⟩
  | .hbm, ⟨63, _⟩ => ⟨S8192x128, .f32⟩
  | .hbm, ⟨64, _⟩ => ⟨S8192x128, .f32⟩
  | .hbm, ⟨65, _⟩ => ⟨S128x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S_, .i1⟩
  | .hbm, ⟨76, _⟩ => ⟨S8192x8192, .i1⟩
  | .hbm, ⟨77, _⟩ => ⟨S8192x8192, .i32⟩
  | .hbm, ⟨78, _⟩ => ⟨S_, .i32⟩
  | .hbm, ⟨79, _⟩ => ⟨S8192x8192, .i32⟩
  | .hbm, ⟨80, _⟩ => ⟨S8192x8192, .i32⟩
  | .hbm, ⟨81, _⟩ => ⟨S8192x8192, .i32⟩
  | .hbm, ⟨82, _⟩ => ⟨S8192x8192, .i1⟩
  | .hbm, ⟨83, _⟩ => ⟨S_, .i1⟩
  | .hbm, ⟨84, _⟩ => ⟨S8192x8192, .i1⟩
  | .hbm, ⟨85, _⟩ => ⟨S8192x8192, .i1⟩
  | .hbm, ⟨86, _⟩ => ⟨S_, .f32⟩
  | .hbm, ⟨87, _⟩ => ⟨S8192x8192, .f32⟩
  | .hbm, ⟨88, _⟩ => ⟨S8192x8192, .i1⟩
  | .hbm, ⟨89, _⟩ => ⟨S8192x8192, .i1⟩
  | .hbm, ⟨90, _⟩ => ⟨S_, .f32⟩
  | .hbm, ⟨91, _⟩ => ⟨S8192x8192, .f32⟩
  | .hbm, ⟨92, _⟩ => ⟨S8192x8192, .f32⟩
  | .hbm, ⟨93, _⟩ => ⟨S1x131072, .i32⟩
  | .hbm, ⟨94, _⟩ => ⟨S131072, .i32⟩
  | .hbm, ⟨95, _⟩ => ⟨S1x131072, .i32⟩
  | .hbm, ⟨96, _⟩ => ⟨S131072, .i32⟩
  | .hbm, ⟨97, _⟩ => ⟨S_, .i32⟩
  | .hbm, ⟨98, _⟩ => ⟨S131072, .i32⟩
  | .hbm, ⟨99, _⟩ => ⟨S131072, .i1⟩
  | .hbm, ⟨100, _⟩ => ⟨S_, .i32⟩
  | .hbm, ⟨101, _⟩ => ⟨S131072, .i32⟩
  | .hbm, ⟨102, _⟩ => ⟨S131072, .i32⟩
  | .hbm, ⟨103, _⟩ => ⟨S131072, .i32⟩
  | .hbm, ⟨104, _⟩ => ⟨S_, .i32⟩
  | .hbm, ⟨105, _⟩ => ⟨S131072, .i32⟩
  | .hbm, ⟨106, _⟩ => ⟨S131072, .i1⟩
  | .hbm, ⟨107, _⟩ => ⟨S_, .i32⟩
  | .hbm, ⟨108, _⟩ => ⟨S131072, .i32⟩
  | .hbm, ⟨109, _⟩ => ⟨S131072, .i32⟩
  | .hbm, ⟨110, _⟩ => ⟨S131072, .i32⟩
  | .hbm, ⟨111, _⟩ => ⟨S131072x1, .i32⟩
  | .hbm, ⟨112, _⟩ => ⟨S131072x1, .i32⟩
  | .hbm, ⟨113, _⟩ => ⟨S131072x2, .i32⟩
  | .hbm, ⟨114, _⟩ => ⟨S_, .f32⟩
  | .hbm, ⟨115, _⟩ => ⟨S131072, .f32⟩
  | .hbm, ⟨116, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_call1_cst : Ref sig .tc := ⟨.hbm, 57, rfl⟩
abbrev main_call1_v0 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_2 : Ref sig .tc := ⟨.hbm, 69, rfl⟩
abbrev main_v34 : Ref sig .tc := ⟨.hbm, 70, rfl⟩
abbrev main_v35 : Ref sig .tc := ⟨.hbm, 71, rfl⟩
abbrev main_cst_3 : Ref sig .tc := ⟨.hbm, 72, rfl⟩
abbrev main_v36 : Ref sig .tc := ⟨.hbm, 73, rfl⟩
abbrev main_v37 : Ref sig .tc := ⟨.hbm, 74, rfl⟩
abbrev main_c_4 : Ref sig .tc := ⟨.hbm, 75, rfl⟩
abbrev main_v38 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_0 : Ref sig .tc := ⟨.hbm, 83, rfl⟩
abbrev main_call2_v5 : Ref sig .tc := ⟨.hbm, 84, rfl⟩
abbrev main_v39 : Ref sig .tc := ⟨.hbm, 85, rfl⟩
abbrev main_cst_5 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_6 : Ref sig .tc := ⟨.hbm, 90, rfl⟩
abbrev main_call3_v0 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_c_7 : Ref sig .tc := ⟨.hbm, 97, rfl⟩
abbrev main_v48 : Ref sig .tc := ⟨.hbm, 98, rfl⟩
abbrev main_v49 : Ref sig .tc := ⟨.hbm, 99, rfl⟩
abbrev main_c_8 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_c_9 : Ref sig .tc := ⟨.hbm, 104, rfl⟩
abbrev main_v53 : Ref sig .tc := ⟨.hbm, 105, rfl⟩
abbrev main_v54 : Ref sig .tc := ⟨.hbm, 106, rfl⟩
abbrev main_c_10 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_11 : Ref sig .tc := ⟨.hbm, 114, rfl⟩
abbrev main_v61 : Ref sig .tc := ⟨.hbm, 115, rfl⟩
abbrev main_v62 : Ref sig .tc := ⟨.hbm, 116, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S512_d0 : S8192x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S8192x512 : S_.BroadcastsInDim S8192x512 (![] : Fin 0 → Fin S8192x512.rank)
  transposes_S128x512_S512x128_1_0 : S128x512.Transposes [1, 0] S512x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  dot_S8192x256_S256x512_S8192x512_1_0_0_1_n_n_wf : DotDims.WF S8192x256 S256x512 S8192x512 [1] [0] [0] [1] [] []
  dot_S8192x512_S512x128_S8192x128_1_0_0_1_n_n_wf : DotDims.WF S8192x512 S512x128 S8192x128 [1] [0] [0] [1] [] []
  dot_S8192x128_S128x8192_S8192x8192_1_0_0_1_n_n_wf : DotDims.WF S8192x128 S128x8192 S8192x8192 [1] [0] [0] [1] [] []
  scatter_S8192x8192_S131072x2_S131072_n_01_01_1_wf : ScatterDims.WF S8192x8192 S131072x2 S131072 [] [0, 1] [0, 1] 1

variable [Facts₀]

def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf

class Facts : Prop extends Facts₀ where

variable [Facts]
-- ==== Proof.K.Dats.lean ====
/-
  The three kernel regions' proof data, at a parameter `V`: the TensorCore's buffer contents when the region is entered.
  Region 0 computes one tile of rows of `x · W1ᵀ + b1`; region 1 one tile of rows of the second linear layer applied to the
  normalised, rectified first layer; region 2 one tile of the thresholded strict upper triangle of `sigmoid (emb · embᵀ)`.
  For each region: a window's block at a grid point, what the body leaves in the output window's buffer as a function of
  the input blocks (the body's one store over its payload), and the record the pipeline rule takes.
-/
import proofs.«166763_j5368709120801_2_alg».proof.Proof.Gen.Kernel.Launch
import proofs.«166763_j5368709120801_2_alg».proof.Proof.Gen.Kernel.Skeleton
import proofs.«166763_j5368709120801_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: a tile of rows of the first linear layer -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x256 := Rect.unit (s := S1024x256) ![0, 0] S1024x256.size inb_S1024x256_S1024x256_0_0
abbrev r0_1 : Rect S256x512 := Rect.unit (s := S256x512) ![0, 0] S256x512.size inb_S256x512_S256x512_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-- The output window's buffer after the body: the tile of rows `x_tile · W1ᵀ + b1`, stored whole. -/
def out0_3 (x0 : Vec F S1024x256 .f32) (x1 : Vec F S256x512 .f32) (x2 : Vec F S1x512 .f32) : Vec F S1024x512 .f32 :=
  View.canon [⟨r0_3, k0_pay1 (View.ld x0 r0_0) (View.ld x1 r0_1) (View.ld x2 r0_2)⟩]

/-- The proof data of region 0 on core `c`: the arrays as the region finds them; after the body each input's buffer at its
    block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: a tile of rows of the second linear layer over the normalised, rectified first layer -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x512 := Rect.unit (s := S1024x512) ![0, 0] S1024x512.size inb_S1024x512_S1024x512_0_0
abbrev r1_row : Rect S1x512 := Rect.unit (s := S1x512) ![0, 0] S1x512.size inb_S1x512_S1x512_0_0
abbrev r1_5 : Rect S512x128 := Rect.unit (s := S512x128) ![0, 0] S512x128.size inb_S512x128_S512x128_0_0
abbrev r1_6 : Rect S1x128 := Rect.unit (s := S1x128) ![0, 0] S1x128.size inb_S1x128_S1x128_0_0
abbrev r1_7 : Rect S1024x128 := Rect.unit (s := S1024x128) ![0, 0] S1024x128.size inb_S1024x128_S1024x128_0_0

/-- The output window's buffer after the body: the tile of rows `relu(((h − μ)·σ⁻¹)·γ + β) · W2ᵀ + b2`, stored whole. -/
def out1_7 (x0 : Vec F S1024x512 .f32) (x1 x2 x3 x4 : Vec F S1x512 .f32) (x5 : Vec F S512x128 .f32) (x6 : Vec F S1x128 .f32) :
    Vec F S1024x128 .f32 :=
  View.canon [⟨r1_7, k1_pay1 (View.ld x0 r1_0) (View.ld x1 r1_row) (View.ld x2 r1_row) (View.ld x3 r1_row) (View.ld x4 r1_row)
    (View.ld x5 r1_5) (View.ld x6 r1_6)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

/-! ## Region 2: a tile of the thresholded strict upper triangle of the pairwise scores -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x128 := Rect.unit (s := S512x128) ![0, 0] S512x128.size inb_S512x128_S512x128_0_0
abbrev r2_1 : Rect S2048x128 := Rect.unit (s := S2048x128) ![0, 0] S2048x128.size inb_S2048x128_S2048x128_0_0
abbrev r2_2 : Rect S512x2048 := Rect.unit (s := S512x2048) ![0, 0] S512x2048.size inb_S512x2048_S512x2048_0_0

/-- The output window's buffer after the body at grid coordinates `i`: the tile of `sigmoid (emb_i · emb_jᵀ)` kept where the
    global row is below the global column and the value is at least one half, zero elsewhere; stored whole. -/
def out2_2 (i : grid2.Coords) (x0 : Vec F S512x128 .f32) (x1 : Vec F S2048x128 .f32) : Vec F S512x2048 .f32 :=
  View.canon [⟨r2_2, k2_pay1 i (View.ld x0 r2_0) (View.ld x1 r2_1)⟩]

/-- The two input windows read one array (the embeddings, by row tile and by column tile): each holds half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (grid2.coords t) (iblk2 V c 0 t) (iblk2 V c 1 t) := by dsimp only [dat2]

end Cert.Kernel.Hand

end
-- ==== Proof.K.Fold.lean ====
/-
  The buffer contents at every boundary between @main's items, as a fold from the launch memory: a stretch of host
  operations applies them; a kernel region leaves each of its arrays at what the pipeline's write-backs make of it
  and every other buffer as entered. Then the family of the three regions' proof data, each at its region's entry
  contents, and the thread state that rides beside the buffers through every item.
-/
import proofs.«166763_j5368709120801_2_alg».proof.Proof.Gen.Kernel.Launch
import proofs.«166763_j5368709120801_2_alg».proof.Proof.Gen.Kernel.Skeleton
import proofs.«166763_j5368709120801_2_alg».proof.Proof.Gen.Kernel.Points
import proofs.«166763_j5368709120801_2_alg».proof.Proof.K.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first host stretch (the transposes and the row reshapes): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the column means, variances and inverse deviations): region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit, which is region 2's entry (no host operation lies between them). -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: the adjacency array at what the pipeline leaves; the embeddings, which its two input windows only
    read, and every other buffer as entered. -/
def W5 (c : Dev nD) : Valuation τ sig (Elt F) :=
  Function.update (W4 m c) (Proc.devRef .tc main_call0_v17) ((dat2 (V4 m) c).arrAt 2 cfg2.N)
theorem W5_out (c : Dev nD) : W5 m c (Proc.devRef .tc main_call0_v17) = (dat2 (V4 m) c).arrAt 2 cfg2.N := by
  unfold W5; exact Function.update_self _ _ _
theorem W5_of_ne (c : Dev nD) (b : Ref sig .tc) (hb : b ≠ main_call0_v17) :
    W5 m c (Proc.devRef .tc b) = W4 m c (Proc.devRef .tc b) := by
  unfold W5; exact Function.update_of_ne (StableHlo.devRef_ne_of_ne hb) _ _
abbrev V5 : (c : Dev nD) → (b : Ref sig .tc) → Buf (Elt F) ((c : Thread nD τ).loc b) := fun c b => W5 m c b
/-- After the last host stretch (the index preparation and the scatter of ones): the end. -/
abbrev W6 : Dev nD → Valuation τ sig (Elt F) := fun c => StableHlo.after hostOps3 (W5 m c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W6 m c) ∗ ∃ r, prngReg c r)

end Cert.Kernel.Hand

end
-- ==== Proof.K.Body0.lean ====
/-
  Region 0's body: one tile of rows of the first linear layer. What each input window's staging buffer holds when the
  body is called (its block, whether or not the pipeline fetched it at that point), the body's triple — it loads the three
  input buffers whole, loads the output buffer once, and stores the payload over the whole output buffer —, and from these
  the obligation the pipeline rule asks of the body at every grid point.
-/
import proofs.«166763_j5368709120801_2_alg».proof.Proof.Gen.Kernel.Launch
import proofs.«166763_j5368709120801_2_alg».proof.Proof.Gen.Kernel.Skeleton
import proofs.«166763_j5368709120801_2_alg».proof.Proof.Gen.Kernel.Points
import proofs.«166763_j5368709120801_2_alg».proof.Proof.K.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store covers the output window's buffer -/

theorem cover0_3 (p0 : Vec F S1024x512 .f32) (y : S1024x512.Idx) :
    ∃ pc ∈ ([⟨r0_3, p0⟩] : List (View.Piece (Elt F) S1024x512 .f32)), y ∈ pc.1.set :=
  View.cover_of_tiled [⟨r0_3, p0⟩] S1024x512.size (by rfl) y

/-! ## The body's triple -/

set_option maxHeartbeats 1000000 in
/-- The kernel body on whole staging memrefs, the inputs' at read contents `xW` and the output's at anything, runs to the
    continuation holding the inputs' as they were and the output's at `out0_3` of the inputs'. -/
theorem sound_kernel0 (c : Dev nD) (E : Set ℕ) (i : grid0.Coords) (arg1 : Memref sig .tc .vmem S1024x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x256 .f32) (x1 : Vec F S256x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__mlp1_kernel i arg1 harg1 arg2 harg2 arg3 harg3 arg4 harg4) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers at the region's proof data -/

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1's body: one tile of rows of the second linear layer over the normalised, rectified first layer. What each of the
  seven input windows' staging buffers holds when the body is called (its block, whether or not the pipeline fetched it at
  that point), the body's triple — it loads the seven input buffers whole, loads the output buffer once, and stores the
  payload over the whole output buffer —, and from these the obligation the pipeline rule asks of the body at every grid point.
-/
import proofs.«166763_j5368709120801_2_alg».proof.Proof.Gen.Kernel.Launch
import proofs.«166763_j5368709120801_2_alg».proof.Proof.Gen.Kernel.Skeleton
import proofs.«166763_j5368709120801_2_alg».proof.Proof.Gen.Kernel.Points
import proofs.«166763_j5368709120801_2_alg».proof.Proof.K.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the
    block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, the
    block index has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store covers the output window's buffer -/

theorem cover1_7 (p0 : Vec F S1024x128 .f32) (y : S1024x128.Idx) :
    ∃ pc ∈ ([⟨r1_7, p0⟩] : List (View.Piece (Elt F) S1024x128 .f32)), y ∈ pc.1.set :=
  View.cover_of_tiled [⟨r1_7, p0⟩] S1024x128.size (by rfl) y

/-! ## The body's triple -/

set_option maxHeartbeats 1000000 in
/-- The kernel body on whole staging memrefs, the inputs' at read contents `xW` and the output's at anything, runs to the
    continuation holding the inputs' as they were and the output's at `out1_7` of the inputs'. -/
theorem sound_kernel1 (c : Dev nD) (E : Set ℕ) (i : grid1.Coords) (arg1 : Memref sig .tc .vmem S1024x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole)
    (x0 : Vec F S1024x512 .f32) (x1 : Vec F S1x512 .f32) (x2 : Vec F S1x512 .f32) (x3 : Vec F S1x512 .f32) (x4 : Vec F S1x512 .f32) (x5 : Vec F S512x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__mlp2_kernel i arg1 harg1 arg2 harg2 arg3 harg3 arg4 harg4 arg5 harg5 arg6 harg6 arg7 harg7 arg8 harg8) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The inputs' buffers at the region's proof data -/

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

theorem before1_2 (c : Dev nD) (t : Fin cfg1.N) (d) : (dat1 V c).before 2 t d = iblk1 V c 2 t :=
  before1_2_of V (dat1 V c) (A_eq1 V c 2) (after1_2 V c) t d

theorem before1_3 (c : Dev nD) (t : Fin cfg1.N) (d) : (dat1 V c).before 3 t d = iblk1 V c 3 t :=
  before1_3_of V (dat1 V c) (A_eq1 V c 3) (after1_3 V c) t d

theorem before1_4 (c : Dev nD) (t : Fin cfg1.N) (d) : (dat1 V c).before 4 t d = iblk1 V c 4 t :=
  before1_4_of V (dat1 V c) (A_eq1 V c 4) (after1_4 V c) t d

theorem before1_5 (c : Dev nD) (t : Fin cfg1.N) (d) : (dat1 V c).before 5 t d = iblk1 V c 5 t :=
  before1_5_of V (dat1 V c) (A_eq1 V c 5) (after1_5 V c) t d

theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg01.lean ====
/-
  The first two kernel regions as items of @main's run: each is entered with every unscoped buffer at its entry boundary's
  contents beside the generator register and the core's dues, and left with every unscoped buffer at its exit boundary's
  contents beside the same. On entry the region's arrays are split out of the unscoped buffers and the generator register goes
  into the pipeline's invariant; on exit the arrays, at what the pipeline's write-backs leave, are put back among the others.
-/
import proofs.«166763_j5368709120801_2_alg».proof.Proof.Gen.Kernel.Launch
import proofs.«166763_j5368709120801_2_alg».proof.Proof.Gen.Kernel.Skeleton
import proofs.«166763_j5368709120801_2_alg».proof.Proof.Gen.Kernel.Points
import proofs.«166763_j5368709120801_2_alg».proof.Proof.K.Dats
import proofs.«166763_j5368709120801_2_alg».proof.Proof.K.Fold
import proofs.«166763_j5368709120801_2_alg».proof.Proof.K.Body0
import proofs.«166763_j5368709120801_2_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- applying a library lemma stated over the pinned configuration unifies with the printed one only when unification may
-- unfold plain definitions in a metavariable's type
set_option backward.isDefEq.respectTransparency.types false in
/-- Region 0 (the first linear layer) over the thread state: entered from every unscoped buffer at `W1`, left at `W2`; nothing
    owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1 (the second linear layer) over the thread state: entered from every unscoped buffer at `W3`, left at `W4`; nothing
    owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Body2.lean ====
/-
  Region 2's body: on whole staging buffers holding a tile of rows and a tile of columns of the embeddings, the kernel
  loads both, loads the output buffer, and stores over it the thresholded strict upper triangle of the pairwise
  scores of the two tiles, at the tile's grid coordinates. Each input window's current buffer holds its block at every
  point, fetched there or not, so the body's triple gives the pipeline's obligation at every point.
-/
import proofs.«166763_j5368709120801_2_alg».proof.Proof.Gen.Kernel.Launch
import proofs.«166763_j5368709120801_2_alg».proof.Proof.Gen.Kernel.Skeleton
import proofs.«166763_j5368709120801_2_alg».proof.Proof.Gen.Kernel.Points
import proofs.«166763_j5368709120801_2_alg».proof.Proof.K.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- The row-tile window's current buffer holds its block at every point, fetched there or not (it is fetched when the
    row tile changes; between fetches the block index does not move), for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The column-tile window's current buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's triple -/

/-- The body's one store is of the whole buffer, so it covers it. -/
theorem cover2_2 (p0 : Vec F S512x2048 .f32) (y : S512x2048.Idx) :
    ∃ pc ∈ ([⟨r2_2, p0⟩] : List (View.Piece (Elt F) S512x2048 .f32)), y ∈ pc.1.set :=
  View.cover_of_tiled [⟨r2_2, p0⟩] S512x2048.size (by rfl) y

set_option maxHeartbeats 1000000 in
/-- The kernel body at grid coordinates `i` on whole staging memrefs, the inputs' at contents `x0`, `x1` and the
    output's at anything, runs to the continuation holding the inputs' as they were and the output's at
    `out2_2 i x0 x1`: the output buffer's load reads whatever is there and its value is dropped; the store overwrites
    the whole buffer. -/
theorem sound_kernel2 (c : Dev nD) (E : Set ℕ) (i : grid2.Coords) (arg0 : Memref sig .tc .vmem S512x128 .f32) (harg0 : arg0.IsWhole)
    (arg1 : Memref sig .tc .vmem S2048x128 .f32) (harg1 : arg1.IsWhole) (arg2 : Memref sig .tc .vmem S512x2048 .f32) (harg2 : arg2.IsWhole)
    (x0 : Vec F S512x128 .f32) (x1 : Vec F S2048x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 i x0 x1)) -∗ K ⟨⟩))
      ⊢ wp frame (wpE (defs₀ (F := F)) Variants.none c none) E (cc2__adj_kernel i arg0 harg0 arg1 harg1 arg2 harg2) K := by
  simp only [cc2__adj_kernel_eq_skeleton]; unfold cc2__adj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies at the point's grid
    coordinates; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg2.lean ====
/-
  Region 2 as a segment of the run. Its two input windows read ONE array, the embeddings (by row tile and by column
  tile), and its output window writes the adjacency. Of the core's unscoped buffers the region takes the two distinct
  buffers behind its three arrays, each whole at the full share; the embeddings' full share splits into its left and
  right halves, one per input window, and the adjacency goes whole to the output window. At the exit an input window's
  array is as entered, so the two halves hold the same contents and join back to the full share; the adjacency holds
  what the write-backs of all the points leave. Every other unscoped buffer bypasses the region.
-/
import proofs.«166763_j5368709120801_2_alg».proof.Proof.Gen.Kernel.Launch
import proofs.«166763_j5368709120801_2_alg».proof.Proof.Gen.Kernel.Skeleton
import proofs.«166763_j5368709120801_2_alg».proof.Proof.Gen.Kernel.Points
import proofs.«166763_j5368709120801_2_alg».proof.Proof.K.Dats
import proofs.«166763_j5368709120801_2_alg».proof.Proof.K.Fold
import proofs.«166763_j5368709120801_2_alg».proof.Proof.K.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Shares

variable (V : (c : Dev nD) → (b : Ref sig .tc) → Buf (Elt F) ((c : Thread nD τ).loc b))

/-- The distinct buffers behind region 2's three arrays: the embeddings and the adjacency. -/
theorem arrRefs2 : Finset.univ.image (Pipeline.arrRef spec2) = {main_call0_v16, main_call0_v17} := by decide

/-- Those buffers held whole at the full share, one by one. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_call0_v16) ↦{fullShare} V' main_call0_v16) ∗ (((c : Thread nD τ).loc main_call0_v17) ↦{fullShare} V' main_call0_v17)) := by
  unfold Pipeline.arrBufs
  rw [arrRefs2, BI.bigSep_insert (by decide), BI.bigSep_singleton]
  rfl

/-- Region 2's arrays as the pipeline holds them: the embeddings twice, at the left half for the row-tile window and
    at the right half for the column-tile window, and the adjacency whole. -/
theorem arrays2_eq (c : Dev nD) (Fn : (w : Fin cfg2.W) → Buf (Elt F) ((cfg2.win w).arr.view.loc (c : Thread nD τ))) :
    (dat2 V c).arrays Fn = iprop((((c : Thread nD τ).loc main_call0_v16) ↦{fullShare.left} Fn 0) ∗ (((c : Thread nD τ).loc main_call0_v16) ↦{fullShare.right} Fn 1)
      ∗ (((c : Thread nD τ).loc main_call0_v17) ↦{fullShare} Fn 2)) := by
  unfold Dat.arrays
  rw [bigSep_W2]
  rw [(arr_whole2 0).set_eq_univ, (arr_whole2 2).set_eq_univ]
  rfl

/-- The embeddings' full share splits into its halves, one per input window. -/
theorem arrays2_of_arrBufs (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrBufs2_eq, arrays2_eq]
  iintro ⟨H16, H17⟩
  ihave H := (pointsTo_share (PosShare.mem_left_op_right fullShare)).1 $$ H16
  icases H with ⟨Hl, Hr⟩
  isplitl [Hl]; · iexact Hl
  isplitl [Hr]; · iexact Hr
  iexact H17

/-- The input windows never write, so at the exit the halves hold the entry contents and join; the adjacency holds what
    the write-backs leave. -/
theorem arrBufs_of_arrays2 (c : Dev nD) (V' : (b : Ref sig .tc) → Buf (Elt F) ((c : Thread nD τ).loc b))
    (h16 : V' main_call0_v16 = V c main_call0_v16) (h17 : V' main_call0_v17 = (dat2 V c).arrAt 2 cfg2.N) :
    (dat2 V c).arrays ((dat2 V c).arrAt · cfg2.N)
      ⊢ (Pipeline.arrBufs (Ix := Unit) (Name := ℕ) (U := UR sig nD τ) (Lvl := ℕ) spec2 c V' : sProp 𝕄) := by
  rw [arrBufs2_eq, arrays2_eq, h16, h17, (dat2 V c).arrAt_in 0 rfl, (dat2 V c).arrAt_in 1 rfl]
  iintro ⟨Hl, Hr, H17⟩
  isplitl [Hl Hr]
  · iapply (pointsTo_share (PosShare.mem_left_op_right fullShare)).2
    isplitl [Hl]; · iexact Hl
    iexact Hr
  iexact H17

/-- ENTRY, the arrays' part: a core's unscoped buffers at contents `V` are region 2's arrays at the proof data's entry
    contents and the unscoped rest. -/
theorem arrays2_of_unscopedBufs (c : Dev nD) :
    (unscopedBufs (Ix := Unit) (Name := ℕ) (U := UR sig nD τ) (Lvl := ℕ) c (V c) : sProp 𝕄)
      ⊢ iprop((dat2 V c).arrays ((dat2 V c).arrAt · 0)
          ∗ Pipeline.unscopedRest (Ix := Unit) (Name := ℕ) (U := UR sig nD τ) (Lvl := ℕ) spec2 c (V c)) := by
  rw [Pipeline.unscopedBufs_split₀ cfgs 2 winFacts₀2.arr_unscoped c (V c)]
  exact sep_mono (arrays2_of_arrBufs V c) .rfl

/-- EXIT, the arrays' part: region 2's arrays at their final contents and the unscoped rest at `V` are the core's
    unscoped buffers at any contents `V'` that have the adjacency at what the write-backs leave and agree with `V`
    everywhere else. -/
theorem unscopedBufs_of_arrays2 (c : Dev nD) (V' : (b : Ref sig .tc) → Buf (Elt F) ((c : Thread nD τ).loc b))
    (h17 : V' main_call0_v17 = (dat2 V c).arrAt 2 cfg2.N) (hrest : ∀ b, b ≠ main_call0_v17 → V' b = V c b) :
    iprop((dat2 V c).arrays ((dat2 V c).arrAt · cfg2.N)
        ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  rw [Pipeline.unscopedBufs_split₀ cfgs 2 winFacts₀2.arr_unscoped c V']
  refine sep_mono (arrBufs_of_arrays2 V c V' (hrest _ (by decide)) h17) (Entails.of_eq ?_)
  unfold Pipeline.unscopedRest
  exact bigSep_congr fun b hb => by
    rw [hrest b fun e => (Finset.mem_sdiff.mp hb).2 (e ▸ Finset.mem_image.mpr ⟨2, Finset.mem_univ _, rfl⟩)]

end Shares

variable (m : (ℓ : Loc nD τ sig) → Buf (Elt F) ℓ)

set_option backward.isDefEq.respectTransparency.types false in
/-- REGION 2 over the thread state: entered from every unscoped buffer at `W4`, left at `W5`. The two buffers behind its
    arrays are split out of the unscoped buffers, the embeddings' share halved between the input windows, and put back
    at the exit contents; the generator register goes into the class invariant and comes out; nothing owed; no semaphore
    of the kernel's own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := arrays2_of_unscopedBufs (V4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (V4 m) c (V5 m c) (W5_out m c) (fun b hb => W5_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Run.lean ====
/-
  The whole run of @main and the frame claim. @main is six items in order — a stretch of host operations, the first kernel
  region, a second stretch, the second and third kernel regions, a last stretch —; the thread state "every unscoped buffer at
  the boundary's contents, the generator register at some state, nothing owed" chains through them from the launch memory to
  the last boundary. Each argument array's buffer, read back through the boundaries, holds what it held at launch.
-/
import proofs.«166763_j5368709120801_2_alg».proof.Proof.Gen.Kernel.Launch
import proofs.«166763_j5368709120801_2_alg».proof.Proof.Gen.Kernel.Skeleton
import proofs.«166763_j5368709120801_2_alg».proof.Proof.Gen.Kernel.Points
import proofs.«166763_j5368709120801_2_alg».proof.Proof.K.Dats
import proofs.«166763_j5368709120801_2_alg».proof.Proof.K.Fold
import proofs.«166763_j5368709120801_2_alg».proof.Proof.K.Reg01
import proofs.«166763_j5368709120801_2_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as its items in order, and the launch -/

/-- @main's six items in order: a host item per stretch of host operations from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)) ]

/-- @main is the run of the items: it is the chain of its fragments, and the items' run is that chain by definitional unfolding. -/
theorem main_run (c : Dev nD) : main (F := F) c = Pipeline.Seg.run (segs m) := (main_chain c).trans (by chain_rfl)

-- the launch rule's implicit arguments are found by unifying its conclusion with this one, which takes unfolding
-- plain definitions in a metavariable's type
set_option backward.isDefEq.respectTransparency.types false in
/-- The whole run: from any memory with zero counters, every weakly fair execution of @main on the TensorCores terminates,
    nothing faulting, and in every final state each unscoped buffer of each core holds the last boundary's contents `W6`.
    The thread state chains through the six items; after the last host stretch it is regrouped into the buffers beside the
    generator register, and the core's dues beside them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => show iprop(StableHlo.held (c : Thread nD τ) (Pipeline.ucRefs τ sig) (W6 m c) ∗ (∃ r, prngReg c r)
          ∗ ∃ W, owes (c : Thread nD τ) (0 : CellTallies nD τ sig Unit) W)
        ⊢ iprop(Tₙ m c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-! ## The arguments end as launched

No host operation and no region writes an argument's buffer (a region reads one through an input window or passes it by), so
the fold of boundary contents at an argument's buffer walks back to the launch memory. -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg4) := W5_of_ne m c main_arg4 (by decide)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg5) := W5_of_ne m c main_arg5 (by decide)
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg6) := W5_of_ne m c main_arg6 (by decide)
    _ = W3 m c (Proc.devRef .tc main_arg6) := W4_of_ne m c main_arg6 (by decide)
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg7) := W5_of_ne m c main_arg7 (by decide)
    _ = W3 m c (Proc.devRef .tc main_arg7) := W4_of_ne m c main_arg7 (by decide)
    _ = W2 m c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The frame claim -/

/-- At the compiled mesh, from any memory with zero counters, every weakly fair execution of @main on the TensorCores
    terminates, nothing faulting, and every final state has the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c)⟩) (run_all m ρ)

end Cert.Kernel.Hand

end
-- ==== Proof.KI.Dats.lean ====
/-
  The three kernel regions' proof data, at a parameter `V`: the TensorCore's buffer contents when the region is entered.
  Region 0 computes one tile of rows of `x · W1ᵀ + b1`; region 1 one tile of rows of the second linear layer applied to the
  normalised, rectified first layer; region 2 one tile of the thresholded strict upper triangle of `sigmoid (emb · embᵀ)`.
  For each region: a window's block at a grid point, what the body leaves in the output window's buffer as a function of
  the input blocks (the body's one store over its payload), and the record the pipeline rule takes.
-/
import proofs.«166763_j5368709120801_2_alg».proof.Proof.Gen.KernelIdeal.Launch
import proofs.«166763_j5368709120801_2_alg».proof.Proof.Gen.KernelIdeal.Skeleton
import proofs.«166763_j5368709120801_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: a tile of rows of the first linear layer -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x256 := Rect.unit (s := S1024x256) ![0, 0] S1024x256.size inb_S1024x256_S1024x256_0_0
abbrev r0_1 : Rect S256x512 := Rect.unit (s := S256x512) ![0, 0] S256x512.size inb_S256x512_S256x512_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-- The output window's buffer after the body: the tile of rows `x_tile · W1ᵀ + b1`, stored whole. -/
def out0_3 (x0 : Vec F S1024x256 .f32) (x1 : Vec F S256x512 .f32) (x2 : Vec F S1x512 .f32) : Vec F S1024x512 .f32 :=
  View.canon [⟨r0_3, k0_pay1 (View.ld x0 r0_0) (View.ld x1 r0_1) (View.ld x2 r0_2)⟩]

/-- The proof data of region 0 on core `c`: the arrays as the region finds them; after the body each input's buffer at its
    block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: a tile of rows of the second linear layer over the normalised, rectified first layer -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x512 := Rect.unit (s := S1024x512) ![0, 0] S1024x512.size inb_S1024x512_S1024x512_0_0
abbrev r1_row : Rect S1x512 := Rect.unit (s := S1x512) ![0, 0] S1x512.size inb_S1x512_S1x512_0_0
abbrev r1_5 : Rect S512x128 := Rect.unit (s := S512x128) ![0, 0] S512x128.size inb_S512x128_S512x128_0_0
abbrev r1_6 : Rect S1x128 := Rect.unit (s := S1x128) ![0, 0] S1x128.size inb_S1x128_S1x128_0_0
abbrev r1_7 : Rect S1024x128 := Rect.unit (s := S1024x128) ![0, 0] S1024x128.size inb_S1024x128_S1024x128_0_0

/-- The output window's buffer after the body: the tile of rows `relu(((h − μ)·σ⁻¹)·γ + β) · W2ᵀ + b2`, stored whole. -/
def out1_7 (x0 : Vec F S1024x512 .f32) (x1 x2 x3 x4 : Vec F S1x512 .f32) (x5 : Vec F S512x128 .f32) (x6 : Vec F S1x128 .f32) :
    Vec F S1024x128 .f32 :=
  View.canon [⟨r1_7, k1_pay1 (View.ld x0 r1_0) (View.ld x1 r1_row) (View.ld x2 r1_row) (View.ld x3 r1_row) (View.ld x4 r1_row)
    (View.ld x5 r1_5) (View.ld x6 r1_6)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

/-! ## Region 2: a tile of the thresholded strict upper triangle of the pairwise scores -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x128 := Rect.unit (s := S512x128) ![0, 0] S512x128.size inb_S512x128_S512x128_0_0
abbrev r2_1 : Rect S2048x128 := Rect.unit (s := S2048x128) ![0, 0] S2048x128.size inb_S2048x128_S2048x128_0_0
abbrev r2_2 : Rect S512x2048 := Rect.unit (s := S512x2048) ![0, 0] S512x2048.size inb_S512x2048_S512x2048_0_0

/-- The output window's buffer after the body at grid coordinates `i`: the tile of `sigmoid (emb_i · emb_jᵀ)` kept where the
    global row is below the global column and the value is at least one half, zero elsewhere; stored whole. -/
def out2_2 (i : grid2.Coords) (x0 : Vec F S512x128 .f32) (x1 : Vec F S2048x128 .f32) : Vec F S512x2048 .f32 :=
  View.canon [⟨r2_2, k2_pay1 i (View.ld x0 r2_0) (View.ld x1 r2_1)⟩]

/-- The two input windows read one array (the embeddings, by row tile and by column tile): each holds half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (grid2.coords t) (iblk2 V c 0 t) (iblk2 V c 1 t) := by dsimp only [dat2]

end Cert.KernelIdeal.Hand

end
-- ==== Proof.KI.Fold.lean ====
/-
  The buffer contents at every boundary between @main's items, as a fold from the launch memory: a stretch of host
  operations applies them; a kernel region leaves each of its arrays at what the pipeline's write-backs make of it
  and every other buffer as entered. Then the family of the three regions' proof data, each at its region's entry
  contents, and the thread state that rides beside the buffers through every item.
-/
import proofs.«166763_j5368709120801_2_alg».proof.Proof.Gen.KernelIdeal.Launch
import proofs.«166763_j5368709120801_2_alg».proof.Proof.Gen.KernelIdeal.Skeleton
import proofs.«166763_j5368709120801_2_alg».proof.Proof.Gen.KernelIdeal.Points
import proofs.«166763_j5368709120801_2_alg».proof.Proof.KI.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first host stretch (the transposes and the row reshapes): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the column means, variances and inverse deviations): region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit, which is region 2's entry (no host operation lies between them). -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: the adjacency array at what the pipeline leaves; the embeddings, which its two input windows only
    read, and every other buffer as entered. -/
def W5 (c : Dev nD) : Valuation τ sig (Elt F) :=
  Function.update (W4 m c) (Proc.devRef .tc main_call0_v17) ((dat2 (V4 m) c).arrAt 2 cfg2.N)
theorem W5_out (c : Dev nD) : W5 m c (Proc.devRef .tc main_call0_v17) = (dat2 (V4 m) c).arrAt 2 cfg2.N := by
  unfold W5; exact Function.update_self _ _ _
theorem W5_of_ne (c : Dev nD) (b : Ref sig .tc) (hb : b ≠ main_call0_v17) :
    W5 m c (Proc.devRef .tc b) = W4 m c (Proc.devRef .tc b) := by
  unfold W5; exact Function.update_of_ne (StableHlo.devRef_ne_of_ne hb) _ _
abbrev V5 : (c : Dev nD) → (b : Ref sig .tc) → Buf (Elt F) ((c : Thread nD τ).loc b) := fun c b => W5 m c b
/-- After the last host stretch (the index preparation and the scatter of ones): the end. -/
abbrev W6 : Dev nD → Valuation τ sig (Elt F) := fun c => StableHlo.after hostOps3 (W5 m c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W6 m c) ∗ ∃ r, prngReg c r)

end Cert.KernelIdeal.Hand

end
-- ==== Proof.KI.Body0.lean ====
/-
  Region 0's body: one tile of rows of the first linear layer. What each input window's staging buffer holds when the
  body is called (its block, whether or not the pipeline fetched it at that point), the body's triple — it loads the three
  input buffers whole, loads the output buffer once, and stores the payload over the whole output buffer —, and from these
  the obligation the pipeline rule asks of the body at every grid point.
-/
import proofs.«166763_j5368709120801_2_alg».proof.Proof.Gen.KernelIdeal.Launch
import proofs.«166763_j5368709120801_2_alg».proof.Proof.Gen.KernelIdeal.Skeleton
import proofs.«166763_j5368709120801_2_alg».proof.Proof.Gen.KernelIdeal.Points
import proofs.«166763_j5368709120801_2_alg».proof.Proof.KI.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store covers the output window's buffer -/

theorem cover0_3 (p0 : Vec F S1024x512 .f32) (y : S1024x512.Idx) :
    ∃ pc ∈ ([⟨r0_3, p0⟩] : List (View.Piece (Elt F) S1024x512 .f32)), y ∈ pc.1.set :=
  View.cover_of_tiled [⟨r0_3, p0⟩] S1024x512.size (by rfl) y

/-! ## The body's triple -/

set_option maxHeartbeats 1000000 in
/-- The kernel body on whole staging memrefs, the inputs' at read contents `xW` and the output's at anything, runs to the
    continuation holding the inputs' as they were and the output's at `out0_3` of the inputs'. -/
theorem sound_kernel0 (c : Dev nD) (E : Set ℕ) (i : grid0.Coords) (arg1 : Memref sig .tc .vmem S1024x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x256 .f32) (x1 : Vec F S256x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__mlp1_kernel i arg1 harg1 arg2 harg2 arg3 harg3 arg4 harg4) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers at the region's proof data -/

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1's body: one tile of rows of the second linear layer over the normalised, rectified first layer. What each of the
  seven input windows' staging buffers holds when the body is called (its block, whether or not the pipeline fetched it at
  that point), the body's triple — it loads the seven input buffers whole, loads the output buffer once, and stores the
  payload over the whole output buffer —, and from these the obligation the pipeline rule asks of the body at every grid point.
-/
import proofs.«166763_j5368709120801_2_alg».proof.Proof.Gen.KernelIdeal.Launch
import proofs.«166763_j5368709120801_2_alg».proof.Proof.Gen.KernelIdeal.Skeleton
import proofs.«166763_j5368709120801_2_alg».proof.Proof.Gen.KernelIdeal.Points
import proofs.«166763_j5368709120801_2_alg».proof.Proof.KI.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the
    block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, the
    block index has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store covers the output window's buffer -/

theorem cover1_7 (p0 : Vec F S1024x128 .f32) (y : S1024x128.Idx) :
    ∃ pc ∈ ([⟨r1_7, p0⟩] : List (View.Piece (Elt F) S1024x128 .f32)), y ∈ pc.1.set :=
  View.cover_of_tiled [⟨r1_7, p0⟩] S1024x128.size (by rfl) y

/-! ## The body's triple -/

set_option maxHeartbeats 1000000 in
/-- The kernel body on whole staging memrefs, the inputs' at read contents `xW` and the output's at anything, runs to the
    continuation holding the inputs' as they were and the output's at `out1_7` of the inputs'. -/
theorem sound_kernel1 (c : Dev nD) (E : Set ℕ) (i : grid1.Coords) (arg1 : Memref sig .tc .vmem S1024x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole)
    (x0 : Vec F S1024x512 .f32) (x1 : Vec F S1x512 .f32) (x2 : Vec F S1x512 .f32) (x3 : Vec F S1x512 .f32) (x4 : Vec F S1x512 .f32) (x5 : Vec F S512x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__mlp2_kernel i arg1 harg1 arg2 harg2 arg3 harg3 arg4 harg4 arg5 harg5 arg6 harg6 arg7 harg7 arg8 harg8) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The inputs' buffers at the region's proof data -/

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

theorem before1_2 (c : Dev nD) (t : Fin cfg1.N) (d) : (dat1 V c).before 2 t d = iblk1 V c 2 t :=
  before1_2_of V (dat1 V c) (A_eq1 V c 2) (after1_2 V c) t d

theorem before1_3 (c : Dev nD) (t : Fin cfg1.N) (d) : (dat1 V c).before 3 t d = iblk1 V c 3 t :=
  before1_3_of V (dat1 V c) (A_eq1 V c 3) (after1_3 V c) t d

theorem before1_4 (c : Dev nD) (t : Fin cfg1.N) (d) : (dat1 V c).before 4 t d = iblk1 V c 4 t :=
  before1_4_of V (dat1 V c) (A_eq1 V c 4) (after1_4 V c) t d

theorem before1_5 (c : Dev nD) (t : Fin cfg1.N) (d) : (dat1 V c).before 5 t d = iblk1 V c 5 t :=
  before1_5_of V (dat1 V c) (A_eq1 V c 5) (after1_5 V c) t d

theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg01.lean ====
/-
  The first two kernel regions as items of @main's run: each is entered with every unscoped buffer at its entry boundary's
  contents beside the generator register and the core's dues, and left with every unscoped buffer at its exit boundary's
  contents beside the same. On entry the region's arrays are split out of the unscoped buffers and the generator register goes
  into the pipeline's invariant; on exit the arrays, at what the pipeline's write-backs leave, are put back among the others.
-/
import proofs.«166763_j5368709120801_2_alg».proof.Proof.Gen.KernelIdeal.Launch
import proofs.«166763_j5368709120801_2_alg».proof.Proof.Gen.KernelIdeal.Skeleton
import proofs.«166763_j5368709120801_2_alg».proof.Proof.Gen.KernelIdeal.Points
import proofs.«166763_j5368709120801_2_alg».proof.Proof.KI.Dats
import proofs.«166763_j5368709120801_2_alg».proof.Proof.KI.Fold
import proofs.«166763_j5368709120801_2_alg».proof.Proof.KI.Body0
import proofs.«166763_j5368709120801_2_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- applying a library lemma stated over the pinned configuration unifies with the printed one only when unification may
-- unfold plain definitions in a metavariable's type
set_option backward.isDefEq.respectTransparency.types false in
/-- Region 0 (the first linear layer) over the thread state: entered from every unscoped buffer at `W1`, left at `W2`; nothing
    owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1 (the second linear layer) over the thread state: entered from every unscoped buffer at `W3`, left at `W4`; nothing
    owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body2.lean ====
/-
  Region 2's body: on whole staging buffers holding a tile of rows and a tile of columns of the embeddings, the kernel
  loads both, loads the output buffer, and stores over it the thresholded strict upper triangle of the pairwise
  scores of the two tiles, at the tile's grid coordinates. Each input window's current buffer holds its block at every
  point, fetched there or not, so the body's triple gives the pipeline's obligation at every point.
-/
import proofs.«166763_j5368709120801_2_alg».proof.Proof.Gen.KernelIdeal.Launch
import proofs.«166763_j5368709120801_2_alg».proof.Proof.Gen.KernelIdeal.Skeleton
import proofs.«166763_j5368709120801_2_alg».proof.Proof.Gen.KernelIdeal.Points
import proofs.«166763_j5368709120801_2_alg».proof.Proof.KI.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- The row-tile window's current buffer holds its block at every point, fetched there or not (it is fetched when the
    row tile changes; between fetches the block index does not move), for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The column-tile window's current buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's triple -/

/-- The body's one store is of the whole buffer, so it covers it. -/
theorem cover2_2 (p0 : Vec F S512x2048 .f32) (y : S512x2048.Idx) :
    ∃ pc ∈ ([⟨r2_2, p0⟩] : List (View.Piece (Elt F) S512x2048 .f32)), y ∈ pc.1.set :=
  View.cover_of_tiled [⟨r2_2, p0⟩] S512x2048.size (by rfl) y

set_option maxHeartbeats 1000000 in
/-- The kernel body at grid coordinates `i` on whole staging memrefs, the inputs' at contents `x0`, `x1` and the
    output's at anything, runs to the continuation holding the inputs' as they were and the output's at
    `out2_2 i x0 x1`: the output buffer's load reads whatever is there and its value is dropped; the store overwrites
    the whole buffer. -/
theorem sound_kernel2 (c : Dev nD) (E : Set ℕ) (i : grid2.Coords) (arg0 : Memref sig .tc .vmem S512x128 .f32) (harg0 : arg0.IsWhole)
    (arg1 : Memref sig .tc .vmem S2048x128 .f32) (harg1 : arg1.IsWhole) (arg2 : Memref sig .tc .vmem S512x2048 .f32) (harg2 : arg2.IsWhole)
    (x0 : Vec F S512x128 .f32) (x1 : Vec F S2048x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 i x0 x1)) -∗ K ⟨⟩))
      ⊢ wp frame (wpE (defs₀ (F := F)) Variants.none c none) E (cc2__adj_kernel i arg0 harg0 arg1 harg1 arg2 harg2) K := by
  simp only [cc2__adj_kernel_eq_skeleton]; unfold cc2__adj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies at the point's grid
    coordinates; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg2.lean ====
/-
  Region 2 as a segment of the run. Its two input windows read ONE array, the embeddings (by row tile and by column
  tile), and its output window writes the adjacency. Of the core's unscoped buffers the region takes the two distinct
  buffers behind its three arrays, each whole at the full share; the embeddings' full share splits into its left and
  right halves, one per input window, and the adjacency goes whole to the output window. At the exit an input window's
  array is as entered, so the two halves hold the same contents and join back to the full share; the adjacency holds
  what the write-backs of all the points leave. Every other unscoped buffer bypasses the region.
-/
import proofs.«166763_j5368709120801_2_alg».proof.Proof.Gen.KernelIdeal.Launch
import proofs.«166763_j5368709120801_2_alg».proof.Proof.Gen.KernelIdeal.Skeleton
import proofs.«166763_j5368709120801_2_alg».proof.Proof.Gen.KernelIdeal.Points
import proofs.«166763_j5368709120801_2_alg».proof.Proof.KI.Dats
import proofs.«166763_j5368709120801_2_alg».proof.Proof.KI.Fold
import proofs.«166763_j5368709120801_2_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Shares

variable (V : (c : Dev nD) → (b : Ref sig .tc) → Buf (Elt F) ((c : Thread nD τ).loc b))

/-- The distinct buffers behind region 2's three arrays: the embeddings and the adjacency. -/
theorem arrRefs2 : Finset.univ.image (Pipeline.arrRef spec2) = {main_call0_v16, main_call0_v17} := by decide

/-- Those buffers held whole at the full share, one by one. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_call0_v16) ↦{fullShare} V' main_call0_v16) ∗ (((c : Thread nD τ).loc main_call0_v17) ↦{fullShare} V' main_call0_v17)) := by
  unfold Pipeline.arrBufs
  rw [arrRefs2, BI.bigSep_insert (by decide), BI.bigSep_singleton]
  rfl

/-- Region 2's arrays as the pipeline holds them: the embeddings twice, at the left half for the row-tile window and
    at the right half for the column-tile window, and the adjacency whole. -/
theorem arrays2_eq (c : Dev nD) (Fn : (w : Fin cfg2.W) → Buf (Elt F) ((cfg2.win w).arr.view.loc (c : Thread nD τ))) :
    (dat2 V c).arrays Fn = iprop((((c : Thread nD τ).loc main_call0_v16) ↦{fullShare.left} Fn 0) ∗ (((c : Thread nD τ).loc main_call0_v16) ↦{fullShare.right} Fn 1)
      ∗ (((c : Thread nD τ).loc main_call0_v17) ↦{fullShare} Fn 2)) := by
  unfold Dat.arrays
  rw [bigSep_W2]
  rw [(arr_whole2 0).set_eq_univ, (arr_whole2 2).set_eq_univ]
  rfl

/-- The embeddings' full share splits into its halves, one per input window. -/
theorem arrays2_of_arrBufs (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrBufs2_eq, arrays2_eq]
  iintro ⟨H16, H17⟩
  ihave H := (pointsTo_share (PosShare.mem_left_op_right fullShare)).1 $$ H16
  icases H with ⟨Hl, Hr⟩
  isplitl [Hl]; · iexact Hl
  isplitl [Hr]; · iexact Hr
  iexact H17

/-- The input windows never write, so at the exit the halves hold the entry contents and join; the adjacency holds what
    the write-backs leave. -/
theorem arrBufs_of_arrays2 (c : Dev nD) (V' : (b : Ref sig .tc) → Buf (Elt F) ((c : Thread nD τ).loc b))
    (h16 : V' main_call0_v16 = V c main_call0_v16) (h17 : V' main_call0_v17 = (dat2 V c).arrAt 2 cfg2.N) :
    (dat2 V c).arrays ((dat2 V c).arrAt · cfg2.N)
      ⊢ (Pipeline.arrBufs (Ix := Unit) (Name := ℕ) (U := UR sig nD τ) (Lvl := ℕ) spec2 c V' : sProp 𝕄) := by
  rw [arrBufs2_eq, arrays2_eq, h16, h17, (dat2 V c).arrAt_in 0 rfl, (dat2 V c).arrAt_in 1 rfl]
  iintro ⟨Hl, Hr, H17⟩
  isplitl [Hl Hr]
  · iapply (pointsTo_share (PosShare.mem_left_op_right fullShare)).2
    isplitl [Hl]; · iexact Hl
    iexact Hr
  iexact H17

/-- ENTRY, the arrays' part: a core's unscoped buffers at contents `V` are region 2's arrays at the proof data's entry
    contents and the unscoped rest. -/
theorem arrays2_of_unscopedBufs (c : Dev nD) :
    (unscopedBufs (Ix := Unit) (Name := ℕ) (U := UR sig nD τ) (Lvl := ℕ) c (V c) : sProp 𝕄)
      ⊢ iprop((dat2 V c).arrays ((dat2 V c).arrAt · 0)
          ∗ Pipeline.unscopedRest (Ix := Unit) (Name := ℕ) (U := UR sig nD τ) (Lvl := ℕ) spec2 c (V c)) := by
  rw [Pipeline.unscopedBufs_split₀ cfgs 2 winFacts₀2.arr_unscoped c (V c)]
  exact sep_mono (arrays2_of_arrBufs V c) .rfl

/-- EXIT, the arrays' part: region 2's arrays at their final contents and the unscoped rest at `V` are the core's
    unscoped buffers at any contents `V'` that have the adjacency at what the write-backs leave and agree with `V`
    everywhere else. -/
theorem unscopedBufs_of_arrays2 (c : Dev nD) (V' : (b : Ref sig .tc) → Buf (Elt F) ((c : Thread nD τ).loc b))
    (h17 : V' main_call0_v17 = (dat2 V c).arrAt 2 cfg2.N) (hrest : ∀ b, b ≠ main_call0_v17 → V' b = V c b) :
    iprop((dat2 V c).arrays ((dat2 V c).arrAt · cfg2.N)
        ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  rw [Pipeline.unscopedBufs_split₀ cfgs 2 winFacts₀2.arr_unscoped c V']
  refine sep_mono (arrBufs_of_arrays2 V c V' (hrest _ (by decide)) h17) (Entails.of_eq ?_)
  unfold Pipeline.unscopedRest
  exact bigSep_congr fun b hb => by
    rw [hrest b fun e => (Finset.mem_sdiff.mp hb).2 (e ▸ Finset.mem_image.mpr ⟨2, Finset.mem_univ _, rfl⟩)]

end Shares

variable (m : (ℓ : Loc nD τ sig) → Buf (Elt F) ℓ)

set_option backward.isDefEq.respectTransparency.types false in
/-- REGION 2 over the thread state: entered from every unscoped buffer at `W4`, left at `W5`. The two buffers behind its
    arrays are split out of the unscoped buffers, the embeddings' share halved between the input windows, and put back
    at the exit contents; the generator register goes into the class invariant and comes out; nothing owed; no semaphore
    of the kernel's own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := arrays2_of_unscopedBufs (V4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (V4 m) c (V5 m c) (W5_out m c) (fun b hb => W5_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Run.lean ====
/-
  The whole run of @main and the frame claim. @main is six items in order — a stretch of host operations, the first kernel
  region, a second stretch, the second and third kernel regions, a last stretch —; the thread state "every unscoped buffer at
  the boundary's contents, the generator register at some state, nothing owed" chains through them from the launch memory to
  the last boundary. Each argument array's buffer, read back through the boundaries, holds what it held at launch.
-/
import proofs.«166763_j5368709120801_2_alg».proof.Proof.Gen.KernelIdeal.Launch
import proofs.«166763_j5368709120801_2_alg».proof.Proof.Gen.KernelIdeal.Skeleton
import proofs.«166763_j5368709120801_2_alg».proof.Proof.Gen.KernelIdeal.Points
import proofs.«166763_j5368709120801_2_alg».proof.Proof.KI.Dats
import proofs.«166763_j5368709120801_2_alg».proof.Proof.KI.Fold
import proofs.«166763_j5368709120801_2_alg».proof.Proof.KI.Reg01
import proofs.«166763_j5368709120801_2_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as its items in order, and the launch -/

/-- @main's six items in order: a host item per stretch of host operations from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)) ]

/-- @main is the run of the items: it is the chain of its fragments, and the items' run is that chain by definitional unfolding. -/
theorem main_run (c : Dev nD) : main (F := F) c = Pipeline.Seg.run (segs m) := (main_chain c).trans (by chain_rfl)

-- the launch rule's implicit arguments are found by unifying its conclusion with this one, which takes unfolding
-- plain definitions in a metavariable's type
set_option backward.isDefEq.respectTransparency.types false in
/-- The whole run: from any memory with zero counters, every weakly fair execution of @main on the TensorCores terminates,
    nothing faulting, and in every final state each unscoped buffer of each core holds the last boundary's contents `W6`.
    The thread state chains through the six items; after the last host stretch it is regrouped into the buffers beside the
    generator register, and the core's dues beside them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => show iprop(StableHlo.held (c : Thread nD τ) (Pipeline.ucRefs τ sig) (W6 m c) ∗ (∃ r, prngReg c r)
          ∗ ∃ W, owes (c : Thread nD τ) (0 : CellTallies nD τ sig Unit) W)
        ⊢ iprop(Tₙ m c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-! ## The arguments end as launched

No host operation and no region writes an argument's buffer (a region reads one through an input window or passes it by), so
the fold of boundary contents at an argument's buffer walks back to the launch memory. -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg4) := W5_of_ne m c main_arg4 (by decide)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg5) := W5_of_ne m c main_arg5 (by decide)
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg6) := W5_of_ne m c main_arg6 (by decide)
    _ = W3 m c (Proc.devRef .tc main_arg6) := W4_of_ne m c main_arg6 (by decide)
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg7) := W5_of_ne m c main_arg7 (by decide)
    _ = W3 m c (Proc.devRef .tc main_arg7) := W4_of_ne m c main_arg7 (by decide)
    _ = W2 m c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The frame claim -/

/-- At the compiled mesh, from any memory with zero counters, every weakly fair execution of @main on the TensorCores
    terminates, nothing faulting, and every final state has the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c)⟩) (run_all m ρ)

end Cert.KernelIdeal.Hand

end
-- ==== Proof.Ref.Ops.lean ====
/- The reference program's @main as the list of its 109 host operations: each module-local function's
   operations stand at its call, over that call's buffer record. -/
import proofs.«166763_j5368709120801_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 109 operations, in order: a called function's operations stand in its call's place, over the
    call's buffer record. -/
abbrev ops : List (HloOp τ sig (Elt F)) :=
  [
    StableHlo.unary main_arg2 main_v0 ((transpose S256x512 [1, 0] · transposes_S512x256_S256x512_1_0) : (⟨S512x256, .f32⟩ : BufTy).Contents (Elt F) → (⟨S256x512, .f32⟩ : BufTy).Contents (Elt F)),
    StableHlo.binary main_arg0 main_v0 main_v1 ((fun l r => Host.dotGeneral dot_S8192x256_S256x512_S8192x512_1_0_0_1_n_n none l r) : (⟨S8192x256, .f32⟩ : BufTy).Contents (Elt F) → (⟨S256x512, .f32⟩ : BufTy).Contents (Elt F) → (⟨S8192x512, .f32⟩ : BufTy).Contents (Elt F)),
    StableHlo.unary main_arg3 main_v2 (broadcastInDim S1x512 ![1] bcast_S512_S1x512_1 : (⟨S512, .f32⟩ : BufTy).Contents (Elt F) → (⟨S1x512, .f32⟩ : BufTy).Contents (Elt F)),
    StableHlo.unary main_v2 main_v3 (broadcastInDim S8192x512 ![0, 1] bcast_S1x512_S8192x512_0_1 : (⟨S1x512, .f32⟩ : BufTy).Contents (Elt F) → (⟨S8192x512, .f32⟩ : BufTy).Contents (Elt F)),
    StableHlo.binary main_v1 main_v3 main_v4 (addf : (⟨S8192x512, .f32⟩ : BufTy).Contents (Elt F) → (⟨S8192x512, .f32⟩ : BufTy).Contents (Elt F) → (⟨S8192x512, .f32⟩ : BufTy).Contents (Elt F)),
    StableHlo.nullary main_cst (constant S_ .f32 0x00000000#32),
    StableHlo.binary main_v4 main_cst main_v5 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    StableHlo.nullary main_cst_0 (constant S_ .f32 0x46000000#32),
    StableHlo.unary main_cst_0 main_v6 (broadcastInDim S512 ![] bcast_S_S512 : (⟨S_, .f32⟩ : BufTy).Contents (Elt F) → (⟨S512, .f32⟩ : BufTy).Contents (Elt F)),
    StableHlo.binary main_v5 main_v6 main_v7 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    StableHlo.TRef.nullary main_call0.cst (constant S_ .f32 0x00000000#32),
    StableHlo.TRef.binary (.of main_v4 : StableHlo.TRef sig ⟨S8192x512, .f32⟩) main_call0.cst main_call0.v0 (fun x v => Host.reduceAdd x v reducesTo_S8192x512_S512_d0 h_S_),
    StableHlo.TRef.unary main_call0.v0 main_call0.v1 (broadcastInDim S1x512 ![1] bcast_S512_S1x512_1),
    StableHlo.TRef.nullary main_call0.cst_0 (constant S_ .f32 0x46000000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S8192x512 ![0, 1] bcast_S1x512_S8192x512_0_1),
    StableHlo.TRef.binary (.of main_v4 : StableHlo.TRef sig ⟨S8192x512, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x46000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b),
    StableHlo.unary main_v7 main_v9 (broadcastInDim S1x512 ![1] bcast_S512_S1x512_1 : (⟨S512, .f32⟩ : BufTy).Contents (Elt F) → (⟨S1x512, .f32⟩ : BufTy).Contents (Elt F)),
    StableHlo.unary main_v9 main_v10 (broadcastInDim S8192x512 ![0, 1] bcast_S1x512_S8192x512_0_1 : (⟨S1x512, .f32⟩ : BufTy).Contents (Elt F) → (⟨S8192x512, .f32⟩ : BufTy).Contents (Elt F)),
    StableHlo.binary main_v4 main_v10 main_v11 (subf : (⟨S8192x512, .f32⟩ : BufTy).Contents (Elt F) → (⟨S8192x512, .f32⟩ : BufTy).Contents (Elt F) → (⟨S8192x512, .f32⟩ : BufTy).Contents (Elt F)),
    StableHlo.nullary main_cst_1 (constant S_ .f32 0x3727C5AC#32),
    StableHlo.unary main_cst_1 main_v12 (broadcastInDim S512 ![] bcast_S_S512 : (⟨S_, .f32⟩ : BufTy).Contents (Elt F) → (⟨S512, .f32⟩ : BufTy).Contents (Elt F)),
    StableHlo.binary main_v8 main_v12 main_v13 (addf : (⟨S512, .f32⟩ : BufTy).Contents (Elt F) → (⟨S512, .f32⟩ : BufTy).Contents (Elt F) → (⟨S512, .f32⟩ : BufTy).Contents (Elt F)),
    StableHlo.unary main_v13 main_v14 (Host.rsqrt : (⟨S512, .f32⟩ : BufTy).Contents (Elt F) → (⟨S512, .f32⟩ : BufTy).Contents (Elt F)),
    StableHlo.unary main_v14 main_v15 (broadcastInDim S1x512 ![1] bcast_S512_S1x512_1 : (⟨S512, .f32⟩ : BufTy).Contents (Elt F) → (⟨S1x512, .f32⟩ : BufTy).Contents (Elt F)),
    StableHlo.unary main_v15 main_v16 (broadcastInDim S8192x512 ![0, 1] bcast_S1x512_S8192x512_0_1 : (⟨S1x512, .f32⟩ : BufTy).Contents (Elt F) → (⟨S8192x512, .f32⟩ : BufTy).Contents (Elt F)),
    StableHlo.binary main_v11 main_v16 main_v17 (mulf : (⟨S8192x512, .f32⟩ : BufTy).Contents (Elt F) → (⟨S8192x512, .f32⟩ : BufTy).Contents (Elt F) → (⟨S8192x512, .f32⟩ : BufTy).Contents (Elt F)),
    StableHlo.unary main_arg4 main_v18 (broadcastInDim S1x512 ![1] bcast_S512_S1x512_1 : (⟨S512, .f32⟩ : BufTy).Contents (Elt F) → (⟨S1x512, .f32⟩ : BufTy).Contents (Elt F)),
    StableHlo.unary main_v18 main_v19 (broadcastInDim S8192x512 ![0, 1] bcast_S1x512_S8192x512_0_1 : (⟨S1x512, .f32⟩ : BufTy).Contents (Elt F) → (⟨S8192x512, .f32⟩ : BufTy).Contents (Elt F)),
    StableHlo.binary main_v17 main_v19 main_v20 (mulf : (⟨S8192x512, .f32⟩ : BufTy).Contents (Elt F) → (⟨S8192x512, .f32⟩ : BufTy).Contents (Elt F) → (⟨S8192x512, .f32⟩ : BufTy).Contents (Elt F)),
    StableHlo.unary main_arg5 main_v21 (broadcastInDim S1x512 ![1] bcast_S512_S1x512_1 : (⟨S512, .f32⟩ : BufTy).Contents (Elt F) → (⟨S1x512, .f32⟩ : BufTy).Contents (Elt F)),
    StableHlo.unary main_v21 main_v22 (broadcastInDim S8192x512 ![0, 1] bcast_S1x512_S8192x512_0_1 : (⟨S1x512, .f32⟩ : BufTy).Contents (Elt F) → (⟨S8192x512, .f32⟩ : BufTy).Contents (Elt F)),
    StableHlo.binary main_v20 main_v22 main_v23 (addf : (⟨S8192x512, .f32⟩ : BufTy).Contents (Elt F) → (⟨S8192x512, .f32⟩ : BufTy).Contents (Elt F) → (⟨S8192x512, .f32⟩ : BufTy).Contents (Elt F)),
    StableHlo.TRef.nullary main_call1.cst (constant S_ .f32 0x00000000#32),
    StableHlo.TRef.unary main_call1.cst main_call1.v0 (broadcastInDim S8192x512 ![] bcast_S_S8192x512),
    StableHlo.TRef.binary (.of main_v23 : StableHlo.TRef sig ⟨S8192x512, .f32⟩) main_call1.v0 main_call1.v1 maximumf,
    StableHlo.unary main_arg6 main_v25 ((transpose S512x128 [1, 0] · transposes_S128x512_S512x128_1_0) : (⟨S128x512, .f32⟩ : BufTy).Contents (Elt F) → (⟨S512x128, .f32⟩ : BufTy).Contents (Elt F)),
    StableHlo.binary main_v24 main_v25 main_v26 ((fun l r => Host.dotGeneral dot_S8192x512_S512x128_S8192x128_1_0_0_1_n_n none l r) : (⟨S8192x512, .f32⟩ : BufTy).Contents (Elt F) → (⟨S512x128, .f32⟩ : BufTy).Contents (Elt F) → (⟨S8192x128, .f32⟩ : BufTy).Contents (Elt F)),
    StableHlo.unary main_arg7 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S8192x128 ![0, 1] bcast_S1x128_S8192x128_0_1 : (⟨S1x128, .f32⟩ : BufTy).Contents (Elt F) → (⟨S8192x128, .f32⟩ : BufTy).Contents (Elt F)),
    StableHlo.binary main_v26 main_v28 main_v29 (addf : (⟨S8192x128, .f32⟩ : BufTy).Contents (Elt F) → (⟨S8192x128, .f32⟩ : BufTy).Contents (Elt F) → (⟨S8192x128, .f32⟩ : BufTy).Contents (Elt F)),
    StableHlo.unary main_v29 main_v30 ((transpose S128x8192 [1, 0] · transposes_S8192x128_S128x8192_1_0) : (⟨S8192x128, .f32⟩ : BufTy).Contents (Elt F) → (⟨S128x8192, .f32⟩ : BufTy).Contents (Elt F)),
    StableHlo.binary main_v29 main_v30 main_v31 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.unary main_v31 main_v32 (Host.negf : (⟨S8192x8192, .f32⟩ : BufTy).Contents (Elt F) → (⟨S8192x8192, .f32⟩ : BufTy).Contents (Elt F)),
    StableHlo.unary main_v32 main_v33 (Host.exp : (⟨S8192x8192, .f32⟩ : BufTy).Contents (Elt F) → (⟨S8192x8192, .f32⟩ : BufTy).Contents (Elt F)),
    StableHlo.nullary main_cst_2 (constant S_ .f32 0x3F800000#32),
    StableHlo.unary main_cst_2 main_v34 (broadcastInDim S8192x8192 ![] bcast_S_S8192x8192 : (⟨S_, .f32⟩ : BufTy).Contents (Elt F) → (⟨S8192x8192, .f32⟩ : BufTy).Contents (Elt F)),
    StableHlo.binary main_v34 main_v33 main_v35 (addf : (⟨S8192x8192, .f32⟩ : BufTy).Contents (Elt F) → (⟨S8192x8192, .f32⟩ : BufTy).Contents (Elt F) → (⟨S8192x8192, .f32⟩ : BufTy).Contents (Elt F)),
    StableHlo.nullary main_cst_3 (constant S_ .f32 0x3F800000#32),
    StableHlo.unary main_cst_3 main_v36 (broadcastInDim S8192x8192 ![] bcast_S_S8192x8192 : (⟨S_, .f32⟩ : BufTy).Contents (Elt F) → (⟨S8192x8192, .f32⟩ : BufTy).Contents (Elt F)),
    StableHlo.binary main_v36 main_v35 main_v37 (Host.divf : (⟨S8192x8192, .f32⟩ : BufTy).Contents (Elt F) → (⟨S8192x8192, .f32⟩ : BufTy).Contents (Elt F) → (⟨S8192x8192, .f32⟩ : BufTy).Contents (Elt F)),
    StableHlo.nullary main_c_4 (constantI S_ 1 1#1),
    StableHlo.unary main_c_4 main_v38 (broadcastInDim S8192x8192 ![] bcast_S_S8192x8192 : (⟨S_, .i1⟩ : BufTy).Contents (Elt F) → (⟨S8192x8192, .i1⟩ : BufTy).Contents (Elt F)),
    StableHlo.TRef.nullary main_call2.v0 (iotaInDim S8192x8192 32 0),
    StableHlo.TRef.nullary main_call2.c (constantI S_ 32 0#32),
    StableHlo.TRef.unary main_call2.c main_call2.v1 (broadcastInDim S8192x8192 ![] bcast_S_S8192x8192),
    StableHlo.TRef.binary main_call2.v0 main_call2.v1 main_call2.v2 addi,
    StableHlo.TRef.nullary main_call2.v3 (iotaInDim S8192x8192 32 1),
    StableHlo.TRef.binary main_call2.v2 main_call2.v3 main_call2.v4 (cmpi .sge),
    StableHlo.TRef.nullary main_call2.c_0 (constantI S_ 1 0#1),
    StableHlo.TRef.unary main_call2.c_0 main_call2.v5 (broadcastInDim S8192x8192 ![] bcast_S_S8192x8192),
    StableHlo.TRef.ternary main_call2.v4 main_call2.v5 (.of main_v38 : StableHlo.TRef sig ⟨S8192x8192, .i1⟩) main_call2.v6 select,
    StableHlo.nullary main_cst_5 (constant S_ .f32 0x3F000000#32),
    StableHlo.unary main_cst_5 main_v40 (broadcastInDim S8192x8192 ![] bcast_S_S8192x8192 : (⟨S_, .f32⟩ : BufTy).Contents (Elt F) → (⟨S8192x8192, .f32⟩ : BufTy).Contents (Elt F)),
    StableHlo.binary main_v37 main_v40 main_v41 (cmpf .oge : (⟨S8192x8192, .f32⟩ : BufTy).Contents (Elt F) → (⟨S8192x8192, .f32⟩ : BufTy).Contents (Elt F) → (⟨S8192x8192, .i1⟩ : BufTy).Contents (Elt F)),
    StableHlo.binary main_v39 main_v41 main_v42 (andi : (⟨S8192x8192, .i1⟩ : BufTy).Contents (Elt F) → (⟨S8192x8192, .i1⟩ : BufTy).Contents (Elt F) → (⟨S8192x8192, .i1⟩ : BufTy).Contents (Elt F)),
    StableHlo.nullary main_cst_6 (constant S_ .f32 0x00000000#32),
    StableHlo.TRef.unary (.of main_cst_6 : StableHlo.TRef sig ⟨S_, .f32⟩) main_call3.v0 (broadcastInDim S8192x8192 ![] bcast_S_S8192x8192),
    StableHlo.TRef.ternary (.of main_v42 : StableHlo.TRef sig ⟨S8192x8192, .i1⟩) (.of main_v37 : StableHlo.TRef sig ⟨S8192x8192, .f32⟩) main_call3.v0 main_call3.v1 select,
    StableHlo.unary main_arg1 main_v44 ((extractStridedSlice S1x131072 ![0, 0] · slices_S2x131072_S1x131072_0_0) : (⟨S2x131072, .i32⟩ : BufTy).Contents (Elt F) → (⟨S1x131072, .i32⟩ : BufTy).Contents (Elt F)),
    StableHlo.reshape main_v44 main_v45 rfl shapeCasts_S1x131072_S131072,
    StableHlo.unary main_arg1 main_v46 ((extractStridedSlice S1x131072 ![1, 0] · slices_S2x131072_S1x131072_1_0) : (⟨S2x131072, .i32⟩ : BufTy).Contents (Elt F) → (⟨S1x131072, .i32⟩ : BufTy).Contents (Elt F)),
    StableHlo.reshape main_v46 main_v47 rfl shapeCasts_S1x131072_S131072,
    StableHlo.nullary main_c_7 (constantI S_ 32 0#32),
    StableHlo.unary main_c_7 main_v48 (broadcastInDim S131072 ![] bcast_S_S131072 : (⟨S_, .i32⟩ : BufTy).Contents (Elt F) → (⟨S131072, .i32⟩ : BufTy).Contents (Elt F)),
    StableHlo.binary main_v45 main_v48 main_v49 (cmpi .slt : (⟨S131072, .i32⟩ : BufTy).Contents (Elt F) → (⟨S131072, .i32⟩ : BufTy).Contents (Elt F) → (⟨S131072, .i1⟩ : BufTy).Contents (Elt F)),
    StableHlo.nullary main_c_8 (constantI S_ 32 8192#32),
    StableHlo.unary main_c_8 main_v50 (broadcastInDim S131072 ![] bcast_S_S131072 : (⟨S_, .i32⟩ : BufTy).Contents (Elt F) → (⟨S131072, .i32⟩ : BufTy).Contents (Elt F)),
    StableHlo.binary main_v45 main_v50 main_v51 (addi : (⟨S131072, .i32⟩ : BufTy).Contents (Elt F) → (⟨S131072, .i32⟩ : BufTy).Contents (Elt F) → (⟨S131072, .i32⟩ : BufTy).Contents (Elt F)),
    StableHlo.ternary main_v49 main_v51 main_v45 main_v52 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_9 (constantI S_ 32 0#32),
    StableHlo.unary main_c_9 main_v53 (broadcastInDim S131072 ![] bcast_S_S131072 : (⟨S_, .i32⟩ : BufTy).Contents (Elt F) → (⟨S131072, .i32⟩ : BufTy).Contents (Elt F)),
    StableHlo.binary main_v47 main_v53 main_v54 (cmpi .slt : (⟨S131072, .i32⟩ : BufTy).Contents (Elt F) → (⟨S131072, .i32⟩ : BufTy).Contents (Elt F) → (⟨S131072, .i1⟩ : BufTy).Contents (Elt F)),
    StableHlo.nullary main_c_10 (constantI S_ 32 8192#32),
    StableHlo.unary main_c_10 main_v55 (broadcastInDim S131072 ![] bcast_S_S131072 : (⟨S_, .i32⟩ : BufTy).Contents (Elt F) → (⟨S131072, .i32⟩ : BufTy).Contents (Elt F)),
    StableHlo.binary main_v47 main_v55 main_v56 (addi : (⟨S131072, .i32⟩ : BufTy).Contents (Elt F) → (⟨S131072, .i32⟩ : BufTy).Contents (Elt F) → (⟨S131072, .i32⟩ : BufTy).Contents (Elt F)),
    StableHlo.ternary main_v54 main_v56 main_v47 main_v57 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v52 main_v58 (broadcastInDim S131072x1 ![0] bcast_S131072_S131072x1_0 : (⟨S131072, .i32⟩ : BufTy).Contents (Elt F) → (⟨S131072x1, .i32⟩ : BufTy).Contents (Elt F)),
    StableHlo.unary main_v57 main_v59 (broadcastInDim S131072x1 ![0] bcast_S131072_S131072x1_0 : (⟨S131072, .i32⟩ : BufTy).Contents (Elt F) → (⟨S131072x1, .i32⟩ : BufTy).Contents (Elt F)),
    StableHlo.binary main_v58 main_v59 main_v60 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.nullary main_cst_11 (constant S_ .f32 0x3F800000#32),
    StableHlo.unary main_cst_11 main_v61 (broadcastInDim S131072 ![] bcast_S_S131072 : (⟨S_, .f32⟩ : BufTy).Contents (Elt F) → (⟨S131072, .f32⟩ : BufTy).Contents (Elt F)),
    StableHlo.ternary main_v43 main_v60 main_v61 main_v62 ((fun x i u => Host.scatter scatter_S8192x8192_S131072x2_S131072_n_01_01_1 (fun _ b => b) x i u) : (⟨S8192x8192, .f32⟩ : BufTy).Contents (Elt F) → (⟨S131072x2, .i32⟩ : BufTy).Contents (Elt F) → (⟨S131072, .f32⟩ : BufTy).Contents (Elt F) → (⟨S8192x8192, .f32⟩ : BufTy).Contents (Elt F)) ]

set_option maxRecDepth 8192 in
set_option maxHeartbeats 4000000 in
/-- @main is that straight line: the two windows and the functions' bodies unfolded at their calls, both
    sides are one chain of steps once sequencing is reassociated. -/
theorem main_eq (c : Dev nD) : main (F := F) c = seq ops := by
  simp only [main, main_part0, main_part1, fn_var.body, fn_where.body, fn_relu.body, fn_triu.body, fn_where_0.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub .., binary_bufs_sub .., nullary_bufs_sub .., unary_bufs_sub ..,
    ternary_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., nullary_bufs_sub .., unary_bufs_sub ..,
    ternary_bufs_sub ..⟩

end Cert.ReferenceIdeal.Hand

end
-- ==== Proof.Ref.Run.lean ====
/- Every weakly fair execution of the reference program's @main terminates with the result buffer at a
   composition of five named functions of the argument arrays (the hidden layer, its column statistics,
   the embedding, the thresholded upper-triangular adjacency, the scattered edges) and the arguments
   unchanged. -/
import proofs.«166763_j5368709120801_2_alg».proof.Proof.Ref.Ops
import proofs.«166763_j5368709120801_2_alg».proof.Proof.Gen.Pre_finite_inputs
import proofs.«166763_j5368709120801_2_alg».proof.Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The result as five functions of array values -/

/-- A length-512 vector repeated along 8192 rows. -/
def rowB (v : FVec F S512 .f32) : FVec F S8192x512 .f32 :=
  broadcastInDim S8192x512 ![0, 1] bcast_S1x512_S8192x512_0_1 (broadcastInDim S1x512 ![1] bcast_S512_S1x512_1 v)

/-- The hidden layer before normalisation: x · W1ᵀ + b1. -/
def refH (x : FVec F S8192x256 .f32) (W1 : FVec F S512x256 .f32) (b1 : FVec F S512 .f32) : FVec F S8192x512 .f32 :=
  addf (Host.dotGeneral (F := F) dot_S8192x256_S256x512_S8192x512_1_0_0_1_n_n none x
      (transpose S256x512 [1, 0] W1 transposes_S512x256_S256x512_1_0))
    (rowB b1)

/-- The column sums of h, from zero. -/
def colSum (h : FVec F S8192x512 .f32) : FVec F S512 .f32 :=
  Host.reduceAdd (F := F) h (constant (F := F) S_ .f32 0x00000000#32) reducesTo_S8192x512_S512_d0 h_S_

/-- The column means of h: the column sums over 8192. -/
def refMean (h : FVec F S8192x512 .f32) : FVec F S512 .f32 :=
  Host.divf (F := F) (colSum h) (broadcastInDim S512 ![] bcast_S_S512 (constant (F := F) S_ .f32 0x46000000#32))

/-- The variance's denominator as the program computes it: 8192 minus the integer 0 converted. -/
def varN : FVec F S_ .f32 :=
  subf (constant (F := F) S_ .f32 0x46000000#32) (sitofp (F := F) .f32 (constantI S_ 32 0#32))

/-- h minus its column means, the means taken in a 1 × 512 row. -/
def varDev (h : FVec F S8192x512 .f32) : FVec F S8192x512 .f32 :=
  subf h (broadcastInDim S8192x512 ![0, 1] bcast_S1x512_S8192x512_0_1
    (Host.divf (F := F) (broadcastInDim S1x512 ![1] bcast_S512_S1x512_1 (colSum h))
      (broadcastInDim S1x512 ![] bcast_S_S1x512 (constant (F := F) S_ .f32 0x46000000#32))))

/-- The column variances of h: the column sums of the squared deviations over the denominator where
    the denominator is positive, the quiet NaN pattern elsewhere. -/
def refVar (h : FVec F S8192x512 .f32) : FVec F S512 .f32 :=
  select (broadcastInDim S512 ![] bcast_S_S512 (cmpf .ogt (varN (F := F)) (constant (F := F) S_ .f32 0x00000000#32)))
    (Host.divf (F := F) (colSum (mulf (varDev h) (varDev h))) (broadcastInDim S512 ![] bcast_S_S512 (varN (F := F))))
    (broadcastInDim S512 ![] bcast_S_S512 (constant (F := F) S_ .f32 0x7FC00000#32))

/-- The reciprocal square root of the variance plus 1e-5. -/
def refInv (h : FVec F S8192x512 .f32) : FVec F S512 .f32 :=
  Host.rsqrt (F := F) (addf (refVar h) (broadcastInDim S512 ![] bcast_S_S512 (constant (F := F) S_ .f32 0x3727C5AC#32)))

/-- h normalised by column, scaled by gamma and shifted by beta. -/
def refNorm (h : FVec F S8192x512 .f32) (gamma beta : FVec F S512 .f32) : FVec F S8192x512 .f32 :=
  addf (mulf (mulf (subf h (rowB (refMean h))) (rowB (refInv h))) (rowB gamma)) (rowB beta)

/-- The embedding: relu of the normalised layer, times W2ᵀ, plus b2. -/
def refEmb (h : FVec F S8192x512 .f32) (gamma beta : FVec F S512 .f32) (W2 : FVec F S128x512 .f32) (b2 : FVec F S128 .f32) :
    FVec F S8192x128 .f32 :=
  addf (Host.dotGeneral (F := F) dot_S8192x512_S512x128_S8192x128_1_0_0_1_n_n none
      (maximumf (refNorm h gamma beta) (broadcastInDim S8192x512 ![] bcast_S_S8192x512 (constant (F := F) S_ .f32 0x00000000#32)))
      (transpose S512x128 [1, 0] W2 transposes_S128x512_S512x128_1_0))
    (broadcastInDim S8192x128 ![0, 1] bcast_S1x128_S8192x128_0_1 (broadcastInDim S1x128 ![1] bcast_S128_S1x128_1 b2))

/-- The pairwise scores emb · embᵀ. -/
def refScore (emb : FVec F S8192x128 .f32) : FVec F S8192x8192 .f32 :=
  Host.dotGeneral (F := F) dot_S8192x128_S128x8192_S8192x8192_1_0_0_1_n_n none emb
    (transpose S128x8192 [1, 0] emb transposes_S8192x128_S128x8192_1_0)

/-- The logistic function of the scores, spelled 1 / (1 + exp (−s)). -/
def refProb (emb : FVec F S8192x128 .f32) : FVec F S8192x8192 .f32 :=
  Host.divf (F := F) (broadcastInDim S8192x8192 ![] bcast_S_S8192x8192 (constant (F := F) S_ .f32 0x3F800000#32))
    (addf (broadcastInDim S8192x8192 ![] bcast_S_S8192x8192 (constant (F := F) S_ .f32 0x3F800000#32)) (Host.exp (F := F) (Host.negf (F := F) (refScore emb))))

/-- The strict upper triangle as a mask: false where the row index is at least the column index, true elsewhere. -/
def triuMask : IVec S8192x8192 1 :=
  select (cmpi .sge (addi (iotaInDim S8192x8192 32 0) (broadcastInDim S8192x8192 ![] bcast_S_S8192x8192 (constantI S_ 32 0#32)))
      (iotaInDim S8192x8192 32 1))
    (broadcastInDim S8192x8192 ![] bcast_S_S8192x8192 (constantI S_ 1 0#1))
    (broadcastInDim S8192x8192 ![] bcast_S_S8192x8192 (constantI S_ 1 1#1))

/-- The dense adjacency: the probability where it is at least one half strictly above the diagonal, zero elsewhere. -/
def refAdj (emb : FVec F S8192x128 .f32) : FVec F S8192x8192 .f32 :=
  select (andi triuMask (cmpf .oge (refProb emb) (broadcastInDim S8192x8192 ![] bcast_S_S8192x8192 (constant (F := F) S_ .f32 0x3F000000#32))))
    (refProb emb)
    (broadcastInDim S8192x8192 ![] bcast_S_S8192x8192 (constant (F := F) S_ .f32 0x00000000#32))

/-- A negative node index wrapped by adding 8192. -/
def wrapIdx (v : IVec S131072 32) : IVec S131072 32 :=
  select (cmpi .slt v (broadcastInDim S131072 ![] bcast_S_S131072 (constantI S_ 32 0#32)))
    (addi v (broadcastInDim S131072 ![] bcast_S_S131072 (constantI S_ 32 8192#32))) v

/-- The scatter's index table: per edge the wrapped source (row 0 of the edge list) and the wrapped target (row 1). -/
def edgeIdx (ei : IVec S2x131072 32) : IVec S131072x2 32 :=
  concatenate S131072x2 1
    [⟨S131072x1, broadcastInDim S131072x1 ![0] bcast_S131072_S131072x1_0
        (wrapIdx (shapeCast S131072 (extractStridedSlice S1x131072 ![0, 0] ei slices_S2x131072_S1x131072_0_0) shapeCasts_S1x131072_S131072))⟩,
     ⟨S131072x1, broadcastInDim S131072x1 ![0] bcast_S131072_S131072x1_0
        (wrapIdx (shapeCast S131072 (extractStridedSlice S1x131072 ![1, 0] ei slices_S2x131072_S1x131072_1_0) shapeCasts_S1x131072_S131072))⟩]
    concatenates_S131072x1_S131072x1_S131072x2_d1

/-- The result: the dense adjacency with a one written at every listed edge. -/
def refTail (adj : FVec F S8192x8192 .f32) (ei : IVec S2x131072 32) : FVec F S8192x8192 .f32 :=
  Host.scatter scatter_S8192x8192_S131072x2_S131072_n_01_01_1 (fun _ b => b) adj (edgeIdx ei)
    (broadcastInDim S131072 ![] bcast_S_S131072 (constant (F := F) S_ .f32 0x3F800000#32))

/-! ## The operations' fold at the result and at the arguments -/

attribute [local irreducible] Host.reduceAdd Host.scatter Host.divf Host.rsqrt Host.exp Host.negf FloatOps.dotGeneral in
set_option maxRecDepth 100000 in
set_option maxHeartbeats 40000000 in
/-- After the operations the result buffer holds the five functions' composition of the argument buffers' contents. -/
theorem out_eq (V : Valuation τ sig (Elt F)) :
    after ops V (main_v62 : DevRef τ sig) = refTail (refAdj (refEmb (refH (V (main_arg0 : DevRef τ sig)) (V (main_arg2 : DevRef τ sig)) (V (main_arg3 : DevRef τ sig))) (V (main_arg4 : DevRef τ sig)) (V (main_arg5 : DevRef τ sig)) (V (main_arg6 : DevRef τ sig)) (V (main_arg7 : DevRef τ sig)))) (V (main_arg1 : DevRef τ sig)) := by
  after_results_simp <;> rfl

set_option maxRecDepth 100000 in
set_option maxHeartbeats 4000000 in
theorem arg0_eq (V : Valuation τ sig (Elt F)) : after ops V (main_arg0 : DevRef τ sig) = V (main_arg0 : DevRef τ sig) := by
  after_results_simp

set_option maxRecDepth 100000 in
set_option maxHeartbeats 4000000 in
theorem arg1_eq (V : Valuation τ sig (Elt F)) : after ops V (main_arg1 : DevRef τ sig) = V (main_arg1 : DevRef τ sig) := by
  after_results_simp

set_option maxRecDepth 100000 in
set_option maxHeartbeats 4000000 in
theorem arg2_eq (V : Valuation τ sig (Elt F)) : after ops V (main_arg2 : DevRef τ sig) = V (main_arg2 : DevRef τ sig) := by
  after_results_simp

set_option maxRecDepth 100000 in
set_option maxHeartbeats 4000000 in
theorem arg3_eq (V : Valuation τ sig (Elt F)) : after ops V (main_arg3 : DevRef τ sig) = V (main_arg3 : DevRef τ sig) := by
  after_results_simp

set_option maxRecDepth 100000 in
set_option maxHeartbeats 4000000 in
theorem arg4_eq (V : Valuation τ sig (Elt F)) : after ops V (main_arg4 : DevRef τ sig) = V (main_arg4 : DevRef τ sig) := by
  after_results_simp

set_option maxRecDepth 100000 in
set_option maxHeartbeats 4000000 in
theorem arg5_eq (V : Valuation τ sig (Elt F)) : after ops V (main_arg5 : DevRef τ sig) = V (main_arg5 : DevRef τ sig) := by
  after_results_simp

set_option maxRecDepth 100000 in
set_option maxHeartbeats 4000000 in
theorem arg6_eq (V : Valuation τ sig (Elt F)) : after ops V (main_arg6 : DevRef τ sig) = V (main_arg6 : DevRef τ sig) := by
  after_results_simp

set_option maxRecDepth 100000 in
set_option maxHeartbeats 4000000 in
theorem arg7_eq (V : Valuation τ sig (Elt F)) : after ops V (main_arg7 : DevRef τ sig) = V (main_arg7 : DevRef τ sig) := by
  after_results_simp

/-! ## The run -/

/-- On the device, for any float values, from any memory with zero counters: every weakly fair execution of
    @main terminates with the result buffer at the five functions' composition of the arguments' launch
    contents, and the arguments unchanged. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v62) = refTail (refAdj (refEmb (refH (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v62).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

/-- The reference runs and leaves its arguments unchanged: the run with the result dropped. -/
theorem frame : @Cert.frame_ReferenceIdeal Cert.ReferenceIdeal.Gen.facts Cert.Pre_finite_inputs.Gen.facts :=
  fun m g _ => (θ_run _ _ _).mono (fun _ h c => (h c).2) (run (F := Ideal) m g)

end Cert.ReferenceIdeal.Hand

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibDenseBias.lean ====
/-
  A dense layer's two steps read entry by entry on the extended reals, as a kernel spells them on a block of rows and as
  the host spells them on the whole array; any extents.

  The product.  A kernel multiplies a block of rows of the left matrix by the whole right matrix, both narrowed to bf16
  first (which changes nothing on the extended reals), into a zero accumulator; the host multiplies the whole matrices.
  Either way the entry (p, q) is the sum over k of A (p, k) · B (k, q) (dense_block_entry, dense_host_entry): an entry of the
  product reads one row of the left factor, so a block of rows of the product is the product of that block of rows.

  The bias step.  A kernel adds a one-row matrix [1, b], repeated down the rows of its block (row_down_entry), and may take
  the maximum with zero; the host adds the row repeated down all rows by broadcast_in_dim (row_down_host_entry) and takes
  the same maximum against the zero matrix.  Entry (p, q) is x (p, q) + row (0, q), or its maximum with 0
  (bias_block_entry, bias_relu_block_entry, bias_host_entry, bias_relu_host_entry).  A bias vector [b] laid as the row
  [1, b] by a reshape or by a broadcast_in_dim along the last axis is the same row (bias_row_eq).

  It imports this unit's copies of LibPlainDot.lean and LibHostDot.lean.
-/
import Idealize.ShloMosaic.Lib.ValueIdx
import Idealize.ShloMosaic.Lib.ValueLayout
import Idealize.ShloMosaic.Lib.Pipeline.Value
import Idealize.ShloMosaic.PureOps.Ideal.Laws
import proofs.«166763_j5368709120801_2_alg».proof.Proof.LibPlainDot
import proofs.«166763_j5368709120801_2_alg».proof.Proof.LibHostDot

noncomputable section

namespace Cert.Lib.DenseBias

open Idealize.ShloMosaic Idealize.ShloMosaic.ValueIdx

variable {M K N : ℕ}

/-- The kernel's product of a block of rows, both factors narrowed to bf16, into the zero accumulator: entry (p, q) is
    the sum over k of x0 (p, k) · x1 (k, q). -/
theorem dense_block_entry (h : FTy.bits .bf16 < FTy.bits .f32)
    (x0 : FVec Ideal ⟨2, ![M, K]⟩ .f32) (x1 : FVec Ideal ⟨2, ![K, N]⟩ .f32) (p : Fin M) (q : Fin N) :
    matmul (DotDims.plain M K N) none (truncf .bf16 x0 h) (truncf .bf16 x1 h)
        (constant (F := Ideal) ⟨2, ![M, N]⟩ .f32 0x00000000#32) (ix2 p q)
      = ∑ k : Fin K, x0 (ix2 p k) * x1 (ix2 k q) :=
  (Cert.PlainDot.matmul_zero_plain_apply none (truncf .bf16 x0 h) (truncf .bf16 x1 h) p q).trans
    (Finset.sum_congr rfl fun _ _ => rfl)

/-- The host's product of the whole matrices: entry (p, q) is the sum over k of A (p, k) · B (k, q). -/
theorem dense_host_entry (A : FVec Ideal ⟨2, ![M, K]⟩ .f32) (B : FVec Ideal ⟨2, ![K, N]⟩ .f32) (p : Fin M) (q : Fin N) :
    Host.dotGeneral (F := Ideal) (DotDims.plain M K N) none A B (ix2 p q) = ∑ k : Fin K, A (ix2 p k) * B (ix2 k q) :=
  Cert.HostDot.dotGeneral_plain_apply none A B p q

variable {a b : ℕ}

/-- A one-row matrix [1, b] repeated down a rows (the kernel's broadcast of its bias row): entry (p, q) is the row's
    entry q. -/
theorem row_down_entry {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The same repetition as the host spells it (broadcast_in_dim of [1, b] to [a, b] along both axes). -/
theorem row_down_host_entry {α : Type} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector [b] laid as a one-row matrix [1, b], by a reshape (the kernel's program) or by a broadcast_in_dim
    along the last axis (the reference's): the same row. -/
theorem bias_row_eq {α : Type} (x : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ x h1 = broadcastInDim ⟨2, ![1, b]⟩ (![1] : Fin 1 → Fin 2) h2 x := by
  funext j
  obtain ⟨u, q, rfl⟩ : ∃ (u : Fin 1) (q : Fin b), j = ix2 u q := ⟨j 0, j 1, eq_ix2 j⟩
  rw [shapeCast_a_1a_apply]
  refine (broadcastInDim_apply _ h2 x (ix2 u q) (ix1 q) fun ax => ?_).symm
  match ax with
  | ⟨0, _⟩ =>
    show q.val = if b = 1 then 0 else q.val
    split
    · have := q.isLt; omega
    · rfl

/-- The kernel's bias step on a block, with the maximum against zero: entry (p, q) is max (x0 (p, q) + x1 (0, q)) 0. -/
theorem bias_relu_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ (Scalar.ofBits (F := Ideal) .f32 0x00000000#32)) (ix2 p q)
      = max (x0 (ix2 p q) + x1 (ix2 (0 : Fin 1) q)) (Ideal.ofBits .f32 0x00000000#32) := by
  rw [maximumf_apply, addf_apply, shapeCast_self, shapeCast_self, row_down_entry]
  rfl

/-- The kernel's bias step on a block, second layer (no maximum): entry (p, q) is x0 (p, q) + x1 (0, q). -/
theorem bias_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x0 h0) (broadcastTo ⟨2, ![a, b]⟩ (shapeCast ⟨2, ![1, b]⟩ x1 h1) hb) (ix2 p q)
      = x0 (ix2 p q) + x1 (ix2 (0 : Fin 1) q) := by
  rw [addf_apply, shapeCast_self, shapeCast_self, row_down_entry]

/-- The reference's bias step with the maximum against the zero matrix: entry (p, q) is max (X (p, q) + R (0, q)) 0. -/
theorem bias_relu_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2))
    (hz : (⟨0, ![]⟩ : Shape).BroadcastsInDim ⟨2, ![a, b]⟩ (![] : Fin 0 → Fin 2)) (p : Fin a) (q : Fin b) :
    maximumf (addf X (broadcastInDim ⟨2, ![a, b]⟩ (![0, 1] : Fin 2 → Fin 2) hR R))
        (broadcastInDim ⟨2, ![a, b]⟩ (![] : Fin 0 → Fin 2) hz (constant (F := Ideal) ⟨0, ![]⟩ .f32 0x00000000#32)) (ix2 p q)
      = max (X (ix2 p q) + R (ix2 (0 : Fin 1) q)) (Ideal.ofBits .f32 0x00000000#32) := by
  rw [maximumf_apply, addf_apply, row_down_host_entry]
  rfl

/-- The reference's bias step, second layer: entry (p, q) is X (p, q) + R (0, q). -/
theorem bias_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2)) (p : Fin a) (q : Fin b) :
    addf X (broadcastInDim ⟨2, ![a, b]⟩ (![0, 1] : Fin 2 → Fin 2) hR R) (ix2 p q)
      = X (ix2 p q) + R (ix2 (0 : Fin 1) q) := by
  rw [addf_apply, row_down_host_entry]

end Cert.Lib.DenseBias

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.KI.Val2.lean ====
/-
  Region 2's value: entry (P, Q) of the adjacency array is sigmoid s, s the sum over k of emb (P, k) · emb (Q, k), kept where
  P is below Q (as 32-bit signed words) and sigmoid s is at least one half, and zero elsewhere. The body's payload is that on a
  tile of 512 rows by 2048 columns whose global row and column come from the grid coordinates; the 16 × 4 tiles cover
  the 8192 × 8192 array.
-/
import proofs.«166763_j5368709120801_2_alg».proof.Proof.KI.Dats
import proofs.«166763_j5368709120801_2_alg».proof.Proof.LibPlainDot
import proofs.«166763_j5368709120801_2_alg».proof.Proof.LibDenseBias
import proofs.«166763_j5368709120801_2_alg».proof.Proof.LibRowsDot
import proofs.«166763_j5368709120801_2_alg».proof.Proof.LibHostDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-- A product with the transpose of the right factor, into the zero accumulator, at an entry, at any precision hint. -/
theorem rowsDot_apply {M K N : ℕ} (prec : Option ContractPrecision) (A : FVec Ideal ⟨2, ![M, K]⟩ .f32) (B : FVec Ideal ⟨2, ![N, K]⟩ .f32)
    (p : Fin M) (q : Fin N) :
    matmul (DotDims.transposedRhs M K N) prec A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact Cert.Lib.RowsDot.lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact Cert.Lib.RowsDot.rhs_row _ _
    | ⟨1, _⟩ => exact ((DotDims.transposedRhs M K N).rhsIdx_val_of_single rfl _ _).trans hk)
  rw [el, er]

/-- The tile's global row (or column) as a word: the tile's number times the tile's extent, plus the position inside. -/
theorem tile_word (g e p : ℕ) :
    IntOp.addi (Scalar.muli (BitVec.ofNat 32 g) (BitVec.ofNat 32 e)) (BitVec.ofNat 32 p) = BitVec.ofNat 32 (g * e + p) := by
  show BitVec.ofNat 32 g * BitVec.ofNat 32 e + BitVec.ofNat 32 p = _
  rw [BitVec.ofNat_add, BitVec.ofNat_mul]

/-- The kept value at global position (P, Q) given the score `s`. -/
def keep (P Q : ℕ) (s : Ideal .f32) : Ideal .f32 :=
  Scalar.select (IntOp.andi (IntOp.cmpi .slt (BitVec.ofNat 32 P) (BitVec.ofNat 32 Q))
      (FloatOps.cmpf .oge (FloatOps.logistic s) (Scalar.ofBits (F := Ideal) .f32 0x3F000000#32)))
    (FloatOps.logistic s) (Scalar.ofBits (F := Ideal) .f32 0x00000000#32)

/-- The body's payload on the tile at grid coordinates `i`, at an entry. -/
theorem pay2_apply (i : grid2.Coords) (v0 : FVec Ideal S512x128 .f32) (v2 : FVec Ideal S2048x128 .f32) (p : Fin 512) (q : Fin 2048) :
    k2_pay1 (F := Ideal) i v0 v2 (ix2 p q)
      = keep ((i 0).val * 512 + p.val) ((i 1).val * 2048 + q.val) (∑ k : Fin 128, v0 (ix2 p k) * v2 (ix2 q k)) := by
  unfold k2_pay1 keep
  have hs : matmul dot_S512x128_S2048x128_S512x2048_1_1_0_0_n_n (some .fp32) (shapeCast S512x128 v0 shapeCasts_S512x128_S512x128)
      (shapeCast S2048x128 v2 shapeCasts_S2048x128_S2048x128) (constant (F := Ideal) S512x2048 .f32 0x00000000#32) (ix2 p q)
      = ∑ k : Fin 128, v0 (ix2 p k) * v2 (ix2 q k) := by
    rw [shapeCast_self v0 shapeCasts_S512x128_S512x128, shapeCast_self v2 shapeCasts_S2048x128_S2048x128]
    exact rowsDot_apply (some .fp32) v0 v2 p q
  have hr : broadcastTo S512x2048 (addi (broadcast S512x1 (Scalar.muli (BitVec.ofNat 32 (i 0).val) 512#32))
      (iota .tc S512x1 32 [0] iota_S512x1_d0_w32)) broadcasts_S512x1_S512x2048 (ix2 p q) = BitVec.ofNat 32 ((i 0).val * 512 + p.val) := by
    rw [Cert.HostDot.broadcastTo_a1_ab_apply _ broadcasts_S512x1_S512x2048 p q]
    show IntOp.addi (Scalar.muli (BitVec.ofNat 32 (i 0).val) 512#32) (iota .tc S512x1 32 [0] iota_S512x1_d0_w32 (ix2 p (0 : Fin 1))) = _
    rw [iota_single_apply]
    exact tile_word (i 0).val 512 p.val
  have hc : broadcastTo S512x2048 (addi (broadcast S1x2048 (Scalar.muli (BitVec.ofNat 32 (i 1).val) 2048#32))
      (iota .tc S1x2048 32 [1] iota_S1x2048_d1_w32)) broadcasts_S1x2048_S512x2048 (ix2 p q) = BitVec.ofNat 32 ((i 1).val * 2048 + q.val) := by
    rw [Cert.Lib.DenseBias.row_down_entry _ broadcasts_S1x2048_S512x2048 p q]
    show IntOp.addi (Scalar.muli (BitVec.ofNat 32 (i 1).val) 2048#32) (iota .tc S1x2048 32 [1] iota_S1x2048_d1_w32 (ix2 (0 : Fin 1) q)) = _
    rw [iota_single_apply]
    exact tile_word (i 1).val 2048 q.val
  show Scalar.select (IntOp.andi (IntOp.cmpi .slt _ _) (FloatOps.cmpf .oge (FloatOps.logistic _) _)) (FloatOps.logistic _) _ = _
  rw [hs, hr, hc]
  rfl

theorem hz2'' : (![0, 0] : Fin 2 → Nat) = fun _ => 0 := funext fun a => by fin_cases a <;> rfl

/-- Entry (P, Q) of the adjacency array, from the embeddings. -/
def adjEntry (emb : FVec Ideal S8192x128 .f32) (P Q : Fin 8192) : Ideal .f32 :=
  keep P.val Q.val (∑ k : Fin 128, emb (ix2 P k) * emb (ix2 Q k))

/-- The adjacency array before the scatter of ones. -/
def G2 (emb : FVec Ideal S8192x128 .f32) : FVec Ideal S8192x8192 .f32 :=
  fun i => adjEntry emb (i 0) (i 1)

/-- The printed index maps over the grid: the row tile follows the first grid coordinate, the column tile the second, the
    output both. -/
theorem idx_facts2 : ∀ t : Fin cfg2.N, win2_0.index t (0 : Fin 2) = (grid2.coords t (0 : Fin 2)).val ∧ win2_0.index t (1 : Fin 2) = 0
    ∧ win2_1.index t (0 : Fin 2) = (grid2.coords t (1 : Fin 2)).val ∧ win2_1.index t (1 : Fin 2) = 0
    ∧ win2_2.index t (0 : Fin 2) = (grid2.coords t (0 : Fin 2)).val ∧ win2_2.index t (1 : Fin 2) = (grid2.coords t (1 : Fin 2)).val
    ∧ (grid2.coords t (0 : Fin 2)).val < 16 ∧ (grid2.coords t (1 : Fin 2)).val < 4 :=
  (by decide +kernel : ∀ t : Fin grid2.N, _)

/-- Every pair of tile numbers is some grid point's. -/
theorem idx_onto2 : ∀ (a : Fin 16) (b : Fin 4), ∃ t : Fin cfg2.N, win2_2.index t = ![a.val, b.val] :=
  (by decide +kernel : ∀ (a : Fin 16) (b : Fin 4), ∃ t : Fin grid2.N, win2_2.index t = ![a.val, b.val])

variable (V : (c : Dev nD) → (b : Ref sig .tc) → Buf (Elt Ideal) ((c : Thread nD τ).loc b))

/-- What point `t` writes back is tile `t` of the adjacency array of the embeddings as the region finds them. -/
theorem flushed2_eq (c : Dev nD) (t : Fin cfg2.N) :
    (dat2 (F := Ideal) V c).flushed 2 t
      = ((cfg2.win 2).blk t).view.read (Elt Ideal) (G2 (V c main_call0_v16)) := by
  show (cfg2.win 2).cut (grid2.coords t) ((dat2 V c).after 2 t) = _
  rw [after2_2]
  unfold out2_2
  rw [View.canon_unit_zero hz2'']
  simp only [View.ld_unit_zero (S := S512x128) hz2'', View.ld_unit_zero (S := S2048x128) hz2'']
  obtain ⟨e0, e1, e2, e3, e4, e5, b0, b1⟩ := idx_facts2 t
  funext j
  obtain ⟨p, q, rfl⟩ : ∃ (p : Fin 512) (q : Fin 2048), j = ix2 p q := ⟨j 0, j 1, eq_ix2 j⟩
  have hP : (grid2.coords t (0 : Fin 2)).val * 512 + p.val < 8192 := by have := p.isLt; omega
  have hQ : (grid2.coords t (1 : Fin 2)).val * 2048 + q.val < 8192 := by have := q.isLt; omega
  show k2_pay1 (F := Ideal) (grid2.coords t) (iblk2 V c 0 t) (iblk2 V c 1 t) (ix2 p q)
    = G2 (V c main_call0_v16) (((cfg2.win 2).blk t).view.emb (ix2 p q))
  refine (pay2_apply (grid2.coords t) (iblk2 V c 0 t) (iblk2 V c 1 t) p q).trans ?_
  have h2 : ((cfg2.win 2).blk t).view.emb (ix2 p q)
      = ix2 (⟨(grid2.coords t (0 : Fin 2)).val * 512 + p.val, hP⟩ : Fin 8192) (⟨(grid2.coords t (1 : Fin 2)).val * 2048 + q.val, hQ⟩ : Fin 8192) := by
    funext a; apply Fin.ext
    match a with
    | ⟨0, _⟩ => show win2_2.index t (0 : Fin 2) * 512 + 1 * p.val = (grid2.coords t (0 : Fin 2)).val * 512 + p.val; omega
    | ⟨1, _⟩ => show win2_2.index t (1 : Fin 2) * 2048 + 1 * q.val = (grid2.coords t (1 : Fin 2)).val * 2048 + q.val; omega
  rw [h2]
  show _ = adjEntry (V c main_call0_v16) ⟨(grid2.coords t (0 : Fin 2)).val * 512 + p.val, hP⟩ ⟨(grid2.coords t (1 : Fin 2)).val * 2048 + q.val, hQ⟩
  unfold adjEntry
  have r0 : ∀ k : Fin 128, iblk2 V c 0 t (ix2 p k) = V c main_call0_v16 (ix2 (⟨(grid2.coords t (0 : Fin 2)).val * 512 + p.val, hP⟩ : Fin 8192) k) := fun k => by
    show V c main_call0_v16 (((cfg2.win 0).blk t).view.emb (ix2 p k)) = _
    refine congrArg (V c main_call0_v16) ?_
    funext a; apply Fin.ext
    match a with
    | ⟨0, _⟩ => show win2_0.index t (0 : Fin 2) * 512 + 1 * p.val = (grid2.coords t (0 : Fin 2)).val * 512 + p.val; omega
    | ⟨1, _⟩ => show win2_0.index t (1 : Fin 2) * 128 + 1 * k.val = k.val; omega
  have r1 : ∀ k : Fin 128, iblk2 V c 1 t (ix2 q k) = V c main_call0_v16 (ix2 (⟨(grid2.coords t (1 : Fin 2)).val * 2048 + q.val, hQ⟩ : Fin 8192) k) := fun k => by
    show V c main_call0_v16 (((cfg2.win 1).blk t).view.emb (ix2 q k)) = _
    refine congrArg (V c main_call0_v16) ?_
    funext a; apply Fin.ext
    match a with
    | ⟨0, _⟩ => show win2_1.index t (0 : Fin 2) * 2048 + 1 * q.val = (grid2.coords t (1 : Fin 2)).val * 2048 + q.val; omega
    | ⟨1, _⟩ => show win2_1.index t (1 : Fin 2) * 128 + 1 * k.val = k.val; omega
  refine congrArg (keep _ _) (Finset.sum_congr rfl fun k _ => ?_)
  rw [r0 k, r1 k]

/-- An index of the array is in point `t`'s block iff each coordinate is in the block's range on its axis. -/
theorem mem_blk2 (t : Fin cfg2.N) (i : S8192x8192.Idx) :
    i ∈ ((cfg2.win 2).blk t).view.set ↔ ∀ a : Fin 2, win2_2.index t a * S512x2048.size a ≤ (i a).val ∧ (i a).val < win2_2.index t a * S512x2048.size a + S512x2048.size a := by
  show i ∈ ((View.whole main_call0_v17).slice (win2_2.rect t)).set ↔ _
  rw [View.set_slice_whole, Rect.mem_set_unit]
  exact Iff.rfl

/-- Every position lies in the tile of its row's quotient by 512 and its column's quotient by 2048. -/
theorem cover2 (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := idx_onto2 ⟨(i 0).val / 512, by omega⟩ ⟨(i 1).val / 2048, by omega⟩
  have q0 : win2_2.index t (0 : Fin 2) = (i 0).val / 512 := congrFun ht 0
  have q1 : win2_2.index t (1 : Fin 2) = (i 1).val / 2048 := congrFun ht 1
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 2048 ≤ (i 1).val ∧ (i 1).val < win2_2.index t (1 : Fin 2) * 2048 + 2048; omega

/-- The adjacency array after region 2. -/
theorem final2 (c : Dev nD) : (dat2 (F := Ideal) V c).arrAt 2 cfg2.N = G2 (V c main_call0_v16) :=
  (dat2 V c).arrAt_eq_of_cover 2 _ (fun t _ => flushed2_eq V c t) cover2

end Cert.KernelIdeal.HandVal

end
-- ==== Proof.KI.Val0.lean ====
/-
  Region 0's value: every entry (p, q) of the first linear layer's array is the sum over k of x (p, k) · W1ᵀ (k, q)
  plus the bias row's entry q. The body's payload is that on a tile of 1024 rows; tile t holds rows 1024·t … 1024·t + 1023
  and the eight tiles cover the 8192 rows.
-/
import proofs.«166763_j5368709120801_2_alg».proof.Proof.KI.Dats
import proofs.«166763_j5368709120801_2_alg».proof.Proof.LibPlainDot
import proofs.«166763_j5368709120801_2_alg».proof.Proof.LibDenseBias
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-- The body's payload on a tile, at an entry: the row of the left block against the column of the right matrix, plus
    the bias row's entry. -/
theorem pay0_apply (x0 : Vec Ideal S1024x256 .f32) (x1 : Vec Ideal S256x512 .f32) (x2 : Vec Ideal S1x512 .f32)
    (p : Fin 1024) (q : Fin 512) :
    k0_pay1 (F := Ideal) x0 x1 x2 (ix2 p q) = (∑ k : Fin 256, x0 (ix2 p k) * x1 (ix2 k q)) + x2 (ix2 (0 : Fin 1) q) := by
  unfold k0_pay1
  refine (addf_apply _ _ _).trans ?_
  refine congrArg₂ (· + ·) ?_ ?_
  · rw [shapeCast_self x1 shapeCasts_S256x512_S256x512]
    exact Cert.PlainDot.matmul_zero_plain_apply (some .fp32) x0 x1 p q
  · rw [shapeCast_self x2 shapeCasts_S1x512_S1x512]
    exact Cert.Lib.DenseBias.row_down_entry x2 broadcasts_S1x512_S1024x512 p q

theorem hz2 : (![0, 0] : Fin 2 → Nat) = fun _ => 0 := funext fun a => by fin_cases a <;> rfl

/-- Entry (p, q) of the first linear layer, from the left matrix, the transposed weights and the bias row. -/
def hEntry (x : FVec Ideal S8192x256 .f32) (w : FVec Ideal S256x512 .f32) (b : FVec Ideal S1x512 .f32)
    (p : Fin 8192) (q : Fin 512) : Ideal .f32 :=
  (∑ k : Fin 256, x (ix2 p k) * w (ix2 k q)) + b (ix2 (0 : Fin 1) q)

/-- The first linear layer's whole array. -/
def G0 (x : FVec Ideal S8192x256 .f32) (w : FVec Ideal S256x512 .f32) (b : FVec Ideal S1x512 .f32) : FVec Ideal S8192x512 .f32 :=
  fun i => hEntry x w b (i 0) (i 1)

/-- The printed index maps over the grid: the left matrix and the output move together by row tile; the weights and the
    bias row stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point `t` writes back is tile `t` of the first linear layer of the arrays as the region finds them. -/
theorem flushed0_eq (c : Dev nD) (t : Fin cfg0.N) :
    (dat0 (F := Ideal) V c).flushed 3 t
      = ((cfg0.win 3).blk t).view.read (Elt Ideal) (G0 (V c main_arg0) (V c main_call0_v0) (V c main_call0_v2)) := by
  show (cfg0.win 3).cut (grid0.coords t) ((dat0 V c).after 3 t) = _
  rw [after0_3]
  unfold out0_3
  rw [View.canon_unit_zero hz2]
  simp only [View.ld_unit_zero (S := S1024x256) hz2, View.ld_unit_zero (S := S256x512) hz2, View.ld_unit_zero (S := S1x512) hz2]
  obtain ⟨e0, e1, e2, e3, e4, e5, e6, e7⟩ := idx_facts0 t
  funext j
  obtain ⟨p, q, rfl⟩ : ∃ (p : Fin 1024) (q : Fin 512), j = ix2 p q := ⟨j 0, j 1, eq_ix2 j⟩
  have ht : t.val < 8 := lt_of_lt_of_eq t.isLt N_0
  have hP : t.val * 1024 + p.val < 8192 := by have := p.isLt; omega
  show k0_pay1 (F := Ideal) (iblk0 V c 0 t) (iblk0 V c 1 t) (iblk0 V c 2 t) (ix2 p q)
    = G0 (V c main_arg0) (V c main_call0_v0) (V c main_call0_v2) (((cfg0.win 3).blk t).view.emb (ix2 p q))
  refine (pay0_apply (iblk0 V c 0 t) (iblk0 V c 1 t) (iblk0 V c 2 t) p q).trans ?_
  have h3 : ((cfg0.win 3).blk t).view.emb (ix2 p q) = ix2 (⟨t.val * 1024 + p.val, hP⟩ : Fin 8192) q := by
    funext a; apply Fin.ext
    match a with
    | ⟨0, _⟩ => show win0_3.index t (0 : Fin 2) * 1024 + 1 * p.val = t.val * 1024 + p.val; omega
    | ⟨1, _⟩ => show win0_3.index t (1 : Fin 2) * 512 + 1 * q.val = q.val; omega
  rw [h3]
  show _ = hEntry (V c main_arg0) (V c main_call0_v0) (V c main_call0_v2) ⟨t.val * 1024 + p.val, hP⟩ q
  unfold hEntry
  have r0 : ∀ k : Fin 256, iblk0 V c 0 t (ix2 p k) = V c main_arg0 (ix2 (⟨t.val * 1024 + p.val, hP⟩ : Fin 8192) k) := fun k => by
    show V c main_arg0 (((cfg0.win 0).blk t).view.emb (ix2 p k)) = _
    refine congrArg (V c main_arg0) ?_
    funext a; apply Fin.ext
    match a with
    | ⟨0, _⟩ => show win0_0.index t (0 : Fin 2) * 1024 + 1 * p.val = t.val * 1024 + p.val; omega
    | ⟨1, _⟩ => show win0_0.index t (1 : Fin 2) * 256 + 1 * k.val = k.val; omega
  have r1 : ∀ k : Fin 256, iblk0 V c 1 t (ix2 k q) = V c main_call0_v0 (ix2 k q) := fun k => by
    show V c main_call0_v0 (((cfg0.win 1).blk t).view.emb (ix2 k q)) = _
    refine congrArg (V c main_call0_v0) ?_
    funext a; apply Fin.ext
    match a with
    | ⟨0, _⟩ => show win0_1.index t (0 : Fin 2) * 256 + 1 * k.val = k.val; omega
    | ⟨1, _⟩ => show win0_1.index t (1 : Fin 2) * 512 + 1 * q.val = q.val; omega
  have r2 : iblk0 V c 2 t (ix2 (0 : Fin 1) q) = V c main_call0_v2 (ix2 (0 : Fin 1) q) := by
    show V c main_call0_v2 (((cfg0.win 2).blk t).view.emb (ix2 (0 : Fin 1) q)) = _
    refine congrArg (V c main_call0_v2) ?_
    funext a; apply Fin.ext
    match a with
    | ⟨0, _⟩ => show win0_2.index t (0 : Fin 2) * 1 + 1 * 0 = 0; omega
    | ⟨1, _⟩ => show win0_2.index t (1 : Fin 2) * 512 + 1 * q.val = q.val; omega
  rw [r2]
  refine congrArg (· + _) (Finset.sum_congr rfl fun k _ => ?_)
  rw [r0 k, r1 k]

/-- An index of the array is in point `t`'s block iff each coordinate is in the block's range on its axis. -/
theorem mem_blk0 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_call0_v6).slice (win0_3.rect t)).set ↔ _
  rw [View.set_slice_whole, Rect.mem_set_unit]
  exact Iff.rfl

/-- Every row lies in the tile of its quotient by 1024. -/
theorem cover0 (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  let t : Fin cfg0.N := ⟨(i 0).val / 1024, by rw [show cfg0.N = 8 from N_0]; omega⟩
  obtain ⟨e0, e1, e2, e3, e4, e5, e6, e7⟩ := idx_facts0 t
  have e6' : win0_3.index t (0 : Fin 2) = (i 0).val / 1024 := e6
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The first linear layer's array after region 0. -/
theorem final0 (c : Dev nD) :
    (dat0 (F := Ideal) V c).arrAt 3 cfg0.N = G0 (V c main_arg0) (V c main_call0_v0) (V c main_call0_v2) :=
  (dat0 V c).arrAt_eq_of_cover 3 _ (fun t _ => flushed0_eq V c t) cover0

end Cert.KernelIdeal.HandVal

end
-- ==== Proof.KI.Val1.lean ====
/-
  Region 1's value: entry (p, q) of the embeddings is the sum over k of the rectified normalised first layer
  max (((h (p, k) − μ k) · σ⁻¹ k) · γ k + β k) 0 against W2ᵀ (k, q), plus the bias row's entry q. The body's payload is that on
  a tile of 1024 rows; the eight tiles cover the 8192 rows.
-/
import proofs.«166763_j5368709120801_2_alg».proof.Proof.KI.Dats
import proofs.«166763_j5368709120801_2_alg».proof.Proof.LibPlainDot
import proofs.«166763_j5368709120801_2_alg».proof.Proof.LibDenseBias
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-- The body's payload on a tile, at an entry. -/
theorem pay1_apply (v0 : Vec Ideal S1024x512 .f32) (v2 v6 v10 v14 : Vec Ideal S1x512 .f32) (v20 : Vec Ideal S512x128 .f32)
    (v23 : Vec Ideal S1x128 .f32) (p : Fin 1024) (q : Fin 128) :
    k1_pay1 (F := Ideal) v0 v2 v6 v10 v14 v20 v23 (ix2 p q)
      = (∑ k : Fin 512, max (((v0 (ix2 p k) - v2 (ix2 (0 : Fin 1) k)) * v6 (ix2 (0 : Fin 1) k)) * v10 (ix2 (0 : Fin 1) k)
            + v14 (ix2 (0 : Fin 1) k)) (Ideal.ofBits .f32 0x00000000#32) * v20 (ix2 k q))
        + v23 (ix2 (0 : Fin 1) q) := by
  unfold k1_pay1
  refine (addf_apply _ _ _).trans ?_
  refine congrArg₂ (· + ·) ?_ ?_
  · rw [shapeCast_self v20 shapeCasts_S512x128_S512x128]
    refine (Cert.PlainDot.matmul_zero_plain_apply (some .fp32) _ v20 p q).trans (Finset.sum_congr rfl fun k _ => congrArg (· * _) ?_)
    rw [maximumf_apply, addf_apply, mulf_apply, mulf_apply, subf_apply, shapeCast_self v0 shapeCasts_S1024x512_S1024x512,
      shapeCast_self v2 shapeCasts_S1x512_S1x512, shapeCast_self v6 shapeCasts_S1x512_S1x512,
      shapeCast_self v10 shapeCasts_S1x512_S1x512, shapeCast_self v14 shapeCasts_S1x512_S1x512,
      Cert.Lib.DenseBias.row_down_entry v2 broadcasts_S1x512_S1024x512 p k,
      Cert.Lib.DenseBias.row_down_entry v6 broadcasts_S1x512_S1024x512 p k,
      Cert.Lib.DenseBias.row_down_entry v10 broadcasts_S1x512_S1024x512 p k,
      Cert.Lib.DenseBias.row_down_entry v14 broadcasts_S1x512_S1024x512 p k]
    rfl
  · rw [shapeCast_self v23 shapeCasts_S1x128_S1x128]
    exact Cert.Lib.DenseBias.row_down_entry v23 broadcasts_S1x128_S1024x128 p q

theorem hz2' : (![0, 0] : Fin 2 → Nat) = fun _ => 0 := funext fun a => by fin_cases a <;> rfl

/-- Entry (p, q) of the embeddings, from the first layer, the rows of the column statistics and of the scale and shift,
    the transposed weights and the bias row. -/
def embEntry (h : FVec Ideal S8192x512 .f32) (mu inv ga be : FVec Ideal S1x512 .f32) (w : FVec Ideal S512x128 .f32)
    (b : FVec Ideal S1x128 .f32) (p : Fin 8192) (q : Fin 128) : Ideal .f32 :=
  (∑ k : Fin 512, max (((h (ix2 p k) - mu (ix2 (0 : Fin 1) k)) * inv (ix2 (0 : Fin 1) k)) * ga (ix2 (0 : Fin 1) k)
      + be (ix2 (0 : Fin 1) k)) (Ideal.ofBits .f32 0x00000000#32) * w (ix2 k q))
    + b (ix2 (0 : Fin 1) q)

/-- The embeddings' whole array. -/
def G1 (h : FVec Ideal S8192x512 .f32) (mu inv ga be : FVec Ideal S1x512 .f32) (w : FVec Ideal S512x128 .f32)
    (b : FVec Ideal S1x128 .f32) : FVec Ideal S8192x128 .f32 :=
  fun i => embEntry h mu inv ga be w b (i 0) (i 1)

/-- The printed index maps over the grid: the first layer and the output move together by row tile; the rows and the
    weights stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- What point `t` writes back is tile `t` of the embeddings of the arrays as the region finds them. -/
theorem flushed1_eq (c : Dev nD) (t : Fin cfg1.N) :
    (dat1 (F := Ideal) V c).flushed 7 t
      = ((cfg1.win 7).blk t).view.read (Elt Ideal) (G1 (V c main_call0_v6) (V c main_call0_v14) (V c main_call0_v15)
          (V c main_call0_v3) (V c main_call0_v4) (V c main_call0_v1) (V c main_call0_v5)) := by
  show (cfg1.win 7).cut (grid1.coords t) ((dat1 V c).after 7 t) = _
  rw [after1_7]
  unfold out1_7
  rw [View.canon_unit_zero hz2']
  simp only [View.ld_unit_zero (S := S1024x512) hz2', View.ld_unit_zero (S := S1x512) hz2', View.ld_unit_zero (S := S512x128) hz2',
    View.ld_unit_zero (S := S1x128) hz2']
  obtain ⟨e0, e1, e2, e3, e4, e5, e6, e7, e8, e9, e10, e11, e12, e13, e14, e15⟩ := idx_facts1 t
  funext j
  obtain ⟨p, q, rfl⟩ : ∃ (p : Fin 1024) (q : Fin 128), j = ix2 p q := ⟨j 0, j 1, eq_ix2 j⟩
  have ht : t.val < 8 := lt_of_lt_of_eq t.isLt N_1
  have hP : t.val * 1024 + p.val < 8192 := by have := p.isLt; omega
  show k1_pay1 (F := Ideal) (iblk1 V c 0 t) (iblk1 V c 1 t) (iblk1 V c 2 t) (iblk1 V c 3 t) (iblk1 V c 4 t) (iblk1 V c 5 t) (iblk1 V c 6 t) (ix2 p q)
    = G1 (V c main_call0_v6) (V c main_call0_v14) (V c main_call0_v15) (V c main_call0_v3) (V c main_call0_v4) (V c main_call0_v1)
        (V c main_call0_v5) (((cfg1.win 7).blk t).view.emb (ix2 p q))
  refine (pay1_apply (iblk1 V c 0 t) (iblk1 V c 1 t) (iblk1 V c 2 t) (iblk1 V c 3 t) (iblk1 V c 4 t) (iblk1 V c 5 t) (iblk1 V c 6 t) p q).trans ?_
  have h7 : ((cfg1.win 7).blk t).view.emb (ix2 p q) = ix2 (⟨t.val * 1024 + p.val, hP⟩ : Fin 8192) q := by
    funext a; apply Fin.ext
    match a with
    | ⟨0, _⟩ => show win1_7.index t (0 : Fin 2) * 1024 + 1 * p.val = t.val * 1024 + p.val; omega
    | ⟨1, _⟩ => show win1_7.index t (1 : Fin 2) * 128 + 1 * q.val = q.val; omega
  rw [h7]
  show _ = embEntry (V c main_call0_v6) (V c main_call0_v14) (V c main_call0_v15) (V c main_call0_v3) (V c main_call0_v4)
    (V c main_call0_v1) (V c main_call0_v5) ⟨t.val * 1024 + p.val, hP⟩ q
  unfold embEntry
  have r0 : ∀ k : Fin 512, iblk1 V c 0 t (ix2 p k) = V c main_call0_v6 (ix2 (⟨t.val * 1024 + p.val, hP⟩ : Fin 8192) k) := fun k => by
    show V c main_call0_v6 (((cfg1.win 0).blk t).view.emb (ix2 p k)) = _
    refine congrArg (V c main_call0_v6) ?_
    funext a; apply Fin.ext
    match a with
    | ⟨0, _⟩ => show win1_0.index t (0 : Fin 2) * 1024 + 1 * p.val = t.val * 1024 + p.val; omega
    | ⟨1, _⟩ => show win1_0.index t (1 : Fin 2) * 512 + 1 * k.val = k.val; omega
  have r1 : ∀ k : Fin 512, iblk1 V c 1 t (ix2 (0 : Fin 1) k) = V c main_call0_v14 (ix2 (0 : Fin 1) k) := fun k => by
    show V c main_call0_v14 (((cfg1.win 1).blk t).view.emb (ix2 (0 : Fin 1) k)) = _
    refine congrArg (V c main_call0_v14) ?_
    funext a; apply Fin.ext
    match a with
    | ⟨0, _⟩ => show win1_1.index t (0 : Fin 2) * 1 + 1 * 0 = 0; omega
    | ⟨1, _⟩ => show win1_1.index t (1 : Fin 2) * 512 + 1 * k.val = k.val; omega
  have r2 : ∀ k : Fin 512, iblk1 V c 2 t (ix2 (0 : Fin 1) k) = V c main_call0_v15 (ix2 (0 : Fin 1) k) := fun k => by
    show V c main_call0_v15 (((cfg1.win 2).blk t).view.emb (ix2 (0 : Fin 1) k)) = _
    refine congrArg (V c main_call0_v15) ?_
    funext a; apply Fin.ext
    match a with
    | ⟨0, _⟩ => show win1_2.index t (0 : Fin 2) * 1 + 1 * 0 = 0; omega
    | ⟨1, _⟩ => show win1_2.index t (1 : Fin 2) * 512 + 1 * k.val = k.val; omega
  have r3 : ∀ k : Fin 512, iblk1 V c 3 t (ix2 (0 : Fin 1) k) = V c main_call0_v3 (ix2 (0 : Fin 1) k) := fun k => by
    show V c main_call0_v3 (((cfg1.win 3).blk t).view.emb (ix2 (0 : Fin 1) k)) = _
    refine congrArg (V c main_call0_v3) ?_
    funext a; apply Fin.ext
    match a with
    | ⟨0, _⟩ => show win1_3.index t (0 : Fin 2) * 1 + 1 * 0 = 0; omega
    | ⟨1, _⟩ => show win1_3.index t (1 : Fin 2) * 512 + 1 * k.val = k.val; omega
  have r4 : ∀ k : Fin 512, iblk1 V c 4 t (ix2 (0 : Fin 1) k) = V c main_call0_v4 (ix2 (0 : Fin 1) k) := fun k => by
    show V c main_call0_v4 (((cfg1.win 4).blk t).view.emb (ix2 (0 : Fin 1) k)) = _
    refine congrArg (V c main_call0_v4) ?_
    funext a; apply Fin.ext
    match a with
    | ⟨0, _⟩ => show win1_4.index t (0 : Fin 2) * 1 + 1 * 0 = 0; omega
    | ⟨1, _⟩ => show win1_4.index t (1 : Fin 2) * 512 + 1 * k.val = k.val; omega
  have r5 : ∀ k : Fin 512, iblk1 V c 5 t (ix2 k q) = V c main_call0_v1 (ix2 k q) := fun k => by
    show V c main_call0_v1 (((cfg1.win 5).blk t).view.emb (ix2 k q)) = _
    refine congrArg (V c main_call0_v1) ?_
    funext a; apply Fin.ext
    match a with
    | ⟨0, _⟩ => show win1_5.index t (0 : Fin 2) * 512 + 1 * k.val = k.val; omega
    | ⟨1, _⟩ => show win1_5.index t (1 : Fin 2) * 128 + 1 * q.val = q.val; omega
  have r6 : iblk1 V c 6 t (ix2 (0 : Fin 1) q) = V c main_call0_v5 (ix2 (0 : Fin 1) q) := by
    show V c main_call0_v5 (((cfg1.win 6).blk t).view.emb (ix2 (0 : Fin 1) q)) = _
    refine congrArg (V c main_call0_v5) ?_
    funext a; apply Fin.ext
    match a with
    | ⟨0, _⟩ => show win1_6.index t (0 : Fin 2) * 1 + 1 * 0 = 0; omega
    | ⟨1, _⟩ => show win1_6.index t (1 : Fin 2) * 128 + 1 * q.val = q.val; omega
  rw [r6]
  refine congrArg (· + _) (Finset.sum_congr rfl fun k _ => ?_)
  rw [r0 k, r1 k, r2 k, r3 k, r4 k, r5 k]

/-- An index of the array is in point `t`'s block iff each coordinate is in the block's range on its axis. -/
theorem mem_blk1 (t : Fin cfg1.N) (i : S8192x128.Idx) :
    i ∈ ((cfg1.win 7).blk t).view.set ↔ ∀ a : Fin 2, win1_7.index t a * S1024x128.size a ≤ (i a).val ∧ (i a).val < win1_7.index t a * S1024x128.size a + S1024x128.size a := by
  show i ∈ ((View.whole main_call0_v16).slice (win1_7.rect t)).set ↔ _
  rw [View.set_slice_whole, Rect.mem_set_unit]
  exact Iff.rfl

/-- Every row lies in the tile of its quotient by 1024. -/
theorem cover1 (i : S8192x128.Idx) : ∃ t : Fin cfg1.N, (cfg1.win 7).flush t = true ∧ i ∈ ((cfg1.win 7).blk t).view.set := by
  have hi0 : (i 0).val < 8192 := (i 0).isLt
  have hi1 : (i 1).val < 128 := (i 1).isLt
  let t : Fin cfg1.N := ⟨(i 0).val / 1024, by rw [show cfg1.N = 8 from N_1]; omega⟩
  obtain ⟨e0, e1, e2, e3, e4, e5, e6, e7, e8, e9, e10, e11, e12, e13, e14, e15⟩ := idx_facts1 t
  have e14' : win1_7.index t (0 : Fin 2) = (i 0).val / 1024 := e14
  refine ⟨t, flush1_7 t, ?_⟩
  rw [mem_blk1]
  intro a
  match a with
  | ⟨0, _⟩ => show win1_7.index t (0 : Fin 2) * 1024 ≤ (i 0).val ∧ (i 0).val < win1_7.index t (0 : Fin 2) * 1024 + 1024; omega
  | ⟨1, _⟩ => show win1_7.index t (1 : Fin 2) * 128 ≤ (i 1).val ∧ (i 1).val < win1_7.index t (1 : Fin 2) * 128 + 128; omega

/-- The embeddings' array after region 1. -/
theorem final1 (c : Dev nD) :
    (dat1 (F := Ideal) V c).arrAt 7 cfg1.N = G1 (V c main_call0_v6) (V c main_call0_v14) (V c main_call0_v15)
      (V c main_call0_v3) (V c main_call0_v4) (V c main_call0_v1) (V c main_call0_v5) :=
  (dat1 V c).arrAt_eq_of_cover 7 _ (fun t _ => flushed1_eq V c t) cover1

end Cert.KernelIdeal.HandVal

end
-- ==== Proof.KI.Bridge.lean ====
/-
  The two linear layers as the kernel program lays them out and as the reference does, entry by entry on the extended
  reals. Both contract the same left rows against the same transposed weights; the kernel adds a bias laid as a one-row
  matrix by a reshape where the reference repeats the vector along the rows by two broadcasts — the same row — and both
  normalise, scale, shift and rectify entry by entry in the same order. No law beyond the order of the same operations is
  used, so nothing here needs the inputs finite.
-/
import proofs.«166763_j5368709120801_2_alg».proof.Proof.KI.Val0
import proofs.«166763_j5368709120801_2_alg».proof.Proof.KI.Val1
import proofs.«166763_j5368709120801_2_alg».proof.Proof.Ref.Run
import proofs.«166763_j5368709120801_2_alg».proof.Proof.LibHostDot
import proofs.«166763_j5368709120801_2_alg».proof.Proof.LibDenseBias

set_option maxRecDepth 16384

noncomputable section

namespace Cert.KernelIdeal.HandVal

open Idealize.ShloMosaic Idealize.ShloMosaic.ValueIdx
open Cert.KernelIdeal Cert.KernelIdeal.Gen
open Cert.ReferenceIdeal.Hand (refH refEmb refNorm refMean refInv rowB)

/-- A vector repeated along the rows by the reference's two broadcasts reads, at (p, k), the one-row matrix the kernel
    program makes of it by a reshape, at (0, k). -/
theorem rowB_apply (v : FVec Ideal S512 .f32) (p : Fin 8192) (k : Fin 512) :
    rowB (F := Ideal) v (ix2 p k) = shapeCast S1x512 v shapeCasts_S512_S1x512 (ix2 (0 : Fin 1) k) := by
  unfold rowB
  rw [Cert.Lib.DenseBias.row_down_host_entry _ _ p k]
  exact (congrFun (Cert.Lib.DenseBias.bias_row_eq v shapeCasts_S512_S1x512 _) (ix2 (0 : Fin 1) k)).symm

/-- The first linear layer: the kernel program's array is the reference's. -/
theorem bridge0 (x : FVec Ideal S8192x256 .f32) (W1 : FVec Ideal S512x256 .f32) (b1 : FVec Ideal S512 .f32) :
    G0 x (transpose S256x512 [1, 0] W1 transposes_S512x256_S256x512_1_0) (shapeCast S1x512 b1 shapeCasts_S512_S1x512)
      = refH (F := Ideal) x W1 b1 := by
  funext i
  obtain ⟨p, q, rfl⟩ : ∃ (p : Fin 8192) (q : Fin 512), i = ix2 p q := ⟨i 0, i 1, eq_ix2 i⟩
  show hEntry x _ _ p q = _
  unfold hEntry refH
  refine Eq.trans ?_ (addf_apply _ _ _).symm
  refine congrArg₂ (· + ·) ?_ (rowB_apply b1 p q).symm
  exact (Cert.HostDot.dotGeneral_plain_apply none x _ p q).symm

/-- The embeddings: the kernel program's array is the reference's, for the reference's own column means and inverse
    deviations laid as one-row matrices. -/
theorem bridge1 (h : FVec Ideal S8192x512 .f32) (ga be : FVec Ideal S512 .f32) (W2 : FVec Ideal S128x512 .f32) (b2 : FVec Ideal S128 .f32) :
    G1 h (shapeCast S1x512 (refMean (F := Ideal) h) shapeCasts_S512_S1x512) (shapeCast S1x512 (refInv (F := Ideal) h) shapeCasts_S512_S1x512)
        (shapeCast S1x512 ga shapeCasts_S512_S1x512) (shapeCast S1x512 be shapeCasts_S512_S1x512)
        (transpose S512x128 [1, 0] W2 transposes_S128x512_S512x128_1_0) (shapeCast S1x128 b2 shapeCasts_S128_S1x128)
      = refEmb (F := Ideal) h ga be W2 b2 := by
  funext i
  obtain ⟨p, q, rfl⟩ : ∃ (p : Fin 8192) (q : Fin 128), i = ix2 p q := ⟨i 0, i 1, eq_ix2 i⟩
  show embEntry h _ _ _ _ _ _ p q = _
  unfold embEntry refEmb
  refine Eq.trans ?_ (addf_apply _ _ _).symm
  refine congrArg₂ (· + ·) ?_ ?_
  · refine Eq.trans ?_ (Cert.HostDot.dotGeneral_plain_apply none _ _ p q).symm
    refine Finset.sum_congr rfl fun k _ => congrArg (· * _) ?_
    unfold refNorm
    rw [maximumf_apply, addf_apply, mulf_apply, mulf_apply, subf_apply, rowB_apply, rowB_apply, rowB_apply, rowB_apply]
    rfl
  · rw [Cert.Lib.DenseBias.row_down_host_entry _ _ p q]
    exact congrFun (Cert.Lib.DenseBias.bias_row_eq b2 shapeCasts_S128_S1x128 _) (ix2 (0 : Fin 1) q)

end Cert.KernelIdeal.HandVal

end
-- ==== Proof.KI.Tail.lean ====
/-
  The last host stretch as one function: the edge list's two rows, each negative node index wrapped by adding 8192, laid
  side by side as the index table, and a one written into the adjacency array at every listed edge. The kernel program
  and the reference apply the same operations; only the names under which each program states its shape facts differ.
-/
import proofs.«166763_j5368709120801_2_alg».proof.KernelIdeal
import proofs.«166763_j5368709120801_2_alg».proof.Proof.Gen.KernelIdeal
import proofs.«166763_j5368709120801_2_alg».proof.Proof.Ref.Run

noncomputable section

namespace Cert.KernelIdeal.HandVal

open Cert.KernelIdeal Cert.KernelIdeal.Gen Idealize.ShloMosaic

variable {F : FTy → Type} [FloatOps F]

/-- A negative node index wrapped by adding 8192. -/
def wrapIdxK (v : IVec S131072 32) : IVec S131072 32 :=
  select (cmpi .slt v (broadcastInDim S131072 ![] bcast_S_S131072 (constantI S_ 32 0#32)))
    (addi v (broadcastInDim S131072 ![] bcast_S_S131072 (constantI S_ 32 8192#32))) v

/-- The scatter's index table: per edge the wrapped source and the wrapped target. -/
def edgeIdxK (ei : IVec S2x131072 32) : IVec S131072x2 32 :=
  concatenate S131072x2 1
    [⟨S131072x1, broadcastInDim S131072x1 ![0] bcast_S131072_S131072x1_0
        (wrapIdxK (shapeCast S131072 (extractStridedSlice S1x131072 ![0, 0] ei slices_S2x131072_S1x131072_0_0) shapeCasts_S1x131072_S131072))⟩,
     ⟨S131072x1, broadcastInDim S131072x1 ![0] bcast_S131072_S131072x1_0
        (wrapIdxK (shapeCast S131072 (extractStridedSlice S1x131072 ![1, 0] ei slices_S2x131072_S1x131072_1_0) shapeCasts_S1x131072_S131072))⟩]
    concatenates_S131072x1_S131072x1_S131072x2_d1

/-- The adjacency array with a one written at every listed edge. -/
def kerTail (adj : FVec F S8192x8192 .f32) (ei : IVec S2x131072 32) : FVec F S8192x8192 .f32 :=
  Host.scatter scatter_S8192x8192_S131072x2_S131072_n_01_01_1 (fun _ b => b) adj (edgeIdxK ei)
    (broadcastInDim S131072 ![] bcast_S_S131072 (constant (F := F) S_ .f32 0x3F800000#32))

theorem wrapIdxK_eq (v : IVec S131072 32) : wrapIdxK v = Cert.ReferenceIdeal.Hand.wrapIdx v := rfl

attribute [local irreducible] concatenate in
theorem edgeIdxK_eq (ei : IVec S2x131072 32) : edgeIdxK ei = Cert.ReferenceIdeal.Hand.edgeIdx ei := rfl

attribute [local irreducible] Host.scatter in
/-- The two programs' last stretch is one function. -/
theorem kerTail_eq (adj : FVec F S8192x8192 .f32) (ei : IVec S2x131072 32) :
    kerTail adj ei = Cert.ReferenceIdeal.Hand.refTail adj ei := by
  unfold kerTail Cert.ReferenceIdeal.Hand.refTail
  rw [edgeIdxK_eq]
  rfl

end Cert.KernelIdeal.HandVal

end
-- ==== Proof.KI.Stretch.lean ====
/-
  What the three stretches of host operations leave, from any contents `V`: the first stretch transposes the two weight
  matrices and reshapes the four vectors into rows; the second computes the first layer's column means and inverse
  deviations (mean of squared deviations, plus 1e-5, reciprocal square root) and reshapes them into rows; the last
  prepares the edge index table and scatters ones into the adjacency array. Each result buffer holds the named function
  of the contents the stretch read.
-/
import proofs.«166763_j5368709120801_2_alg».proof.Proof.Gen.KernelIdeal.Launch
import proofs.«166763_j5368709120801_2_alg».proof.Proof.KI.Tail
import proofs.«166763_j5368709120801_2_alg».proof.Proof.Ref.Run
import Idealize.ShloMosaic.Lib.StableHlo.Run
import Idealize.ShloMosaic.Lib.Pipeline.Frame

noncomputable section

namespace Cert.KernelIdeal.HandVal

open Cert.KernelIdeal Cert.KernelIdeal.Gen Idealize.ShloMosaic Idealize.ShloMosaic.TcCoe Idealize.SL.Sem Idealize.ShloMosaic.StableHlo

variable {F : FTy → Type} [FloatOps F]

/-! ## The first stretch: the transposes and the row reshapes -/

theorem host0_v0 (V : Valuation τ sig (Elt F)) :
    after hostOps0 V (main_call0_v0 : DevRef τ sig) = transpose S256x512 [1, 0] (V (main_arg2 : DevRef τ sig)) transposes_S512x256_S256x512_1_0 := by
  after_results_simp <;> rfl
theorem host0_v1 (V : Valuation τ sig (Elt F)) :
    after hostOps0 V (main_call0_v1 : DevRef τ sig) = transpose S512x128 [1, 0] (V (main_arg6 : DevRef τ sig)) transposes_S128x512_S512x128_1_0 := by
  after_results_simp <;> rfl
theorem host0_v2 (V : Valuation τ sig (Elt F)) :
    after hostOps0 V (main_call0_v2 : DevRef τ sig) = shapeCast S1x512 (V (main_arg3 : DevRef τ sig)) shapeCasts_S512_S1x512 := by
  after_results_simp <;> rfl
theorem host0_v3 (V : Valuation τ sig (Elt F)) :
    after hostOps0 V (main_call0_v3 : DevRef τ sig) = shapeCast S1x512 (V (main_arg4 : DevRef τ sig)) shapeCasts_S512_S1x512 := by
  after_results_simp <;> rfl
theorem host0_v4 (V : Valuation τ sig (Elt F)) :
    after hostOps0 V (main_call0_v4 : DevRef τ sig) = shapeCast S1x512 (V (main_arg5 : DevRef τ sig)) shapeCasts_S512_S1x512 := by
  after_results_simp <;> rfl
theorem host0_v5 (V : Valuation τ sig (Elt F)) :
    after hostOps0 V (main_call0_v5 : DevRef τ sig) = shapeCast S1x128 (V (main_arg7 : DevRef τ sig)) shapeCasts_S128_S1x128 := by
  after_results_simp <;> rfl

/-! ## The second stretch: the column means and inverse deviations, as rows -/

attribute [local irreducible] Host.reduceAdd Host.scatter Host.divf Host.rsqrt Host.exp Host.negf FloatOps.dotGeneral in
set_option maxRecDepth 100000 in
set_option maxHeartbeats 4000000 in
theorem host1_v14 (V : Valuation τ sig (Elt F)) :
    after hostOps1 V (main_call0_v14 : DevRef τ sig)
      = shapeCast S1x512 (Cert.ReferenceIdeal.Hand.refMean (V (main_call0_v6 : DevRef τ sig))) shapeCasts_S512_S1x512 := by
  after_results_simp <;> rfl

attribute [local irreducible] Host.reduceAdd Host.scatter Host.divf Host.rsqrt Host.exp Host.negf FloatOps.dotGeneral in
set_option maxRecDepth 100000 in
set_option maxHeartbeats 4000000 in
theorem host1_v15 (V : Valuation τ sig (Elt F)) :
    after hostOps1 V (main_call0_v15 : DevRef τ sig)
      = shapeCast S1x512 (Cert.ReferenceIdeal.Hand.refInv (V (main_call0_v6 : DevRef τ sig))) shapeCasts_S512_S1x512 := by
  after_results_simp <;> rfl

/-! ## The last stretch: the scatter of ones at the listed edges -/

/-- The last stretch up to the two index columns, -/
abbrev hostOps3a : List (HloOp τ sig (Elt F)) :=
  [ StableHlo.TRef.unary (.of main_arg1 : StableHlo.TRef sig ⟨S2x131072, .i32⟩) (.of main_call0_v18 : StableHlo.TRef sig ⟨S1x131072, .i32⟩) (extractStridedSlice S1x131072 ![0, 0] · slices_S2x131072_S1x131072_0_0),
    StableHlo.TRef.reshape (.of main_call0_v18 : StableHlo.TRef sig ⟨S1x131072, .i32⟩) (.of main_call0_v19 : StableHlo.TRef sig ⟨S131072, .i32⟩) rfl shapeCasts_S1x131072_S131072,
    StableHlo.TRef.unary (.of main_arg1 : StableHlo.TRef sig ⟨S2x131072, .i32⟩) (.of main_call0_v20 : StableHlo.TRef sig ⟨S1x131072, .i32⟩) (extractStridedSlice S1x131072 ![1, 0] · slices_S2x131072_S1x131072_1_0),
    StableHlo.TRef.reshape (.of main_call0_v20 : StableHlo.TRef sig ⟨S1x131072, .i32⟩) (.of main_call0_v21 : StableHlo.TRef sig ⟨S131072, .i32⟩) rfl shapeCasts_S1x131072_S131072,
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v22 : StableHlo.TRef sig ⟨S131072, .i32⟩) (broadcastInDim S131072 ![] bcast_S_S131072),
    StableHlo.TRef.binary (.of main_call0_v19 : StableHlo.TRef sig ⟨S131072, .i32⟩) (.of main_call0_v22 : StableHlo.TRef sig ⟨S131072, .i32⟩) (.of main_call0_v23 : StableHlo.TRef sig ⟨S131072, .i1⟩) (cmpi .slt),
    StableHlo.TRef.nullary (.of main_call0_c_3 : StableHlo.TRef sig ⟨S_, .i32⟩) (constantI S_ 32 8192#32),
    StableHlo.TRef.unary (.of main_call0_c_3 : StableHlo.TRef sig ⟨S_, .i32⟩) (.of main_call0_v24 : StableHlo.TRef sig ⟨S131072, .i32⟩) (broadcastInDim S131072 ![] bcast_S_S131072),
    StableHlo.TRef.binary (.of main_call0_v19 : StableHlo.TRef sig ⟨S131072, .i32⟩) (.of main_call0_v24 : StableHlo.TRef sig ⟨S131072, .i32⟩) (.of main_call0_v25 : StableHlo.TRef sig ⟨S131072, .i32⟩) addi,
    StableHlo.TRef.ternary (.of main_call0_v23 : StableHlo.TRef sig ⟨S131072, .i1⟩) (.of main_call0_v25 : StableHlo.TRef sig ⟨S131072, .i32⟩) (.of main_call0_v19 : StableHlo.TRef sig ⟨S131072, .i32⟩) (.of main_call0_v26 : StableHlo.TRef sig ⟨S131072, .i32⟩) select,
    StableHlo.TRef.nullary (.of main_call0_c_4 : StableHlo.TRef sig ⟨S_, .i32⟩) (constantI S_ 32 0#32),
    StableHlo.TRef.unary (.of main_call0_c_4 : StableHlo.TRef sig ⟨S_, .i32⟩) (.of main_call0_v27 : StableHlo.TRef sig ⟨S131072, .i32⟩) (broadcastInDim S131072 ![] bcast_S_S131072),
    StableHlo.TRef.binary (.of main_call0_v21 : StableHlo.TRef sig ⟨S131072, .i32⟩) (.of main_call0_v27 : StableHlo.TRef sig ⟨S131072, .i32⟩) (.of main_call0_v28 : StableHlo.TRef sig ⟨S131072, .i1⟩) (cmpi .slt),
    StableHlo.TRef.nullary (.of main_call0_c_5 : StableHlo.TRef sig ⟨S_, .i32⟩) (constantI S_ 32 8192#32),
    StableHlo.TRef.unary (.of main_call0_c_5 : StableHlo.TRef sig ⟨S_, .i32⟩) (.of main_call0_v29 : StableHlo.TRef sig ⟨S131072, .i32⟩) (broadcastInDim S131072 ![] bcast_S_S131072),
    StableHlo.TRef.binary (.of main_call0_v21 : StableHlo.TRef sig ⟨S131072, .i32⟩) (.of main_call0_v29 : StableHlo.TRef sig ⟨S131072, .i32⟩) (.of main_call0_v30 : StableHlo.TRef sig ⟨S131072, .i32⟩) addi,
    StableHlo.TRef.ternary (.of main_call0_v28 : StableHlo.TRef sig ⟨S131072, .i1⟩) (.of main_call0_v30 : StableHlo.TRef sig ⟨S131072, .i32⟩) (.of main_call0_v21 : StableHlo.TRef sig ⟨S131072, .i32⟩) (.of main_call0_v31 : StableHlo.TRef sig ⟨S131072, .i32⟩) select,
    StableHlo.TRef.unary (.of main_call0_v26 : StableHlo.TRef sig ⟨S131072, .i32⟩) (.of main_call0_v32 : StableHlo.TRef sig ⟨S131072x1, .i32⟩) (broadcastInDim S131072x1 ![0] bcast_S131072_S131072x1_0),
    StableHlo.TRef.unary (.of main_call0_v31 : StableHlo.TRef sig ⟨S131072, .i32⟩) (.of main_call0_v33 : StableHlo.TRef sig ⟨S131072x1, .i32⟩) (broadcastInDim S131072x1 ![0] bcast_S131072_S131072x1_0) ]
/-- and from their concatenation on. -/
abbrev hostOps3b : List (HloOp τ sig (Elt F)) :=
  [ StableHlo.TRef.binary (.of main_call0_v32 : StableHlo.TRef sig ⟨S131072x1, .i32⟩) (.of main_call0_v33 : StableHlo.TRef sig ⟨S131072x1, .i32⟩) (.of main_call0_v34 : StableHlo.TRef sig ⟨S131072x2, .i32⟩) (fun a b => concatenate S131072x2 1 [⟨S131072x1, a⟩, ⟨S131072x1, b⟩] concatenates_S131072x1_S131072x1_S131072x2_d1),
    StableHlo.TRef.nullary (.of main_call0_cst_6 : StableHlo.TRef sig ⟨S_, .f32⟩) (constant S_ .f32 0x3F800000#32),
    StableHlo.TRef.unary (.of main_call0_cst_6 : StableHlo.TRef sig ⟨S_, .f32⟩) (.of main_call0_v35 : StableHlo.TRef sig ⟨S131072, .f32⟩) (broadcastInDim S131072 ![] bcast_S_S131072),
    StableHlo.TRef.ternary (.of main_call0_v17 : StableHlo.TRef sig ⟨S8192x8192, .f32⟩) (.of main_call0_v34 : StableHlo.TRef sig ⟨S131072x2, .i32⟩) (.of main_call0_v35 : StableHlo.TRef sig ⟨S131072, .f32⟩) (.of main_v0 : StableHlo.TRef sig ⟨S8192x8192, .f32⟩) (fun x i u => Host.scatter scatter_S8192x8192_S131072x2_S131072_n_01_01_1 (fun _ b => b) x i u) ]
theorem hostOps3_split : (hostOps3 : List (HloOp τ sig (Elt F))) = hostOps3a ++ hostOps3b := rfl

/-! Contents at a value's type read as contents of its buffer, and back, are the contents: the buffer's type IS the value's. -/

theorem ofBuf_toBuf {T : BufTy} (x : StableHlo.TRef sig T) (v : T.Contents (Elt F)) : x.ofBuf (x.toBuf v) = v := by
  obtain ⟨r, h, _, _⟩ := x; subst h; rfl
theorem ofBuf_v17 (p1 p2 p3) (v : FVec F S8192x8192 .f32) :
    (TRef.of main_call0_v17 p1 p2 p3 : TRef sig ⟨S8192x8192, .f32⟩).ofBuf (Val := Elt F) v = v := rfl
theorem ofBuf_v32 (p1 p2 p3) (v : IVec S131072x1 32) :
    (TRef.of main_call0_v32 p1 p2 p3 : TRef sig ⟨S131072x1, .i32⟩).ofBuf (Val := Elt F) v = v := rfl
theorem ofBuf_v33 (p1 p2 p3) (v : IVec S131072x1 32) :
    (TRef.of main_call0_v33 p1 p2 p3 : TRef sig ⟨S131072x1, .i32⟩).ofBuf (Val := Elt F) v = v := rfl
theorem toBuf_v0 (p1 p2 p3) (v : FVec F S8192x8192 .f32) :
    (TRef.of main_v0 p1 p2 p3 : TRef sig ⟨S8192x8192, .f32⟩).toBuf (Val := Elt F) v = v := rfl

set_option maxRecDepth 100000 in
theorem host3a_v32 (V : Valuation τ sig (Elt F)) :
    after hostOps3a V (main_call0_v32 : DevRef τ sig)
      = broadcastInDim S131072x1 ![0] bcast_S131072_S131072x1_0
          (wrapIdxK (shapeCast S131072 (extractStridedSlice S1x131072 ![0, 0] (V (main_arg1 : DevRef τ sig)) slices_S2x131072_S1x131072_0_0) shapeCasts_S1x131072_S131072)) := by
  after_results_simp <;> rfl

set_option maxRecDepth 100000 in
theorem host3a_v33 (V : Valuation τ sig (Elt F)) :
    after hostOps3a V (main_call0_v33 : DevRef τ sig)
      = broadcastInDim S131072x1 ![0] bcast_S131072_S131072x1_0
          (wrapIdxK (shapeCast S131072 (extractStridedSlice S1x131072 ![1, 0] (V (main_arg1 : DevRef τ sig)) slices_S2x131072_S1x131072_1_0) shapeCasts_S1x131072_S131072)) := by
  after_results_simp <;> rfl

set_option maxRecDepth 100000 in
theorem host3a_v17 (V : Valuation τ sig (Elt F)) :
    after hostOps3a V (main_call0_v17 : DevRef τ sig) = V (main_call0_v17 : DevRef τ sig) := by
  after_results_simp

attribute [local irreducible] Host.scatter concatenate broadcastInDim constant in
/-- From the two index columns on: their concatenation is the index table, and ones are scattered at its rows. -/
theorem host3b_v0 (V : Valuation τ sig (Elt F)) :
    after hostOps3b V (main_v0 : DevRef τ sig)
      = Host.scatter scatter_S8192x8192_S131072x2_S131072_n_01_01_1 (fun _ b => b) (V (main_call0_v17 : DevRef τ sig))
          (concatenate S131072x2 1 [⟨S131072x1, V (main_call0_v32 : DevRef τ sig)⟩, ⟨S131072x1, V (main_call0_v33 : DevRef τ sig)⟩]
            concatenates_S131072x1_S131072x1_S131072x2_d1)
          (broadcastInDim S131072 ![] bcast_S_S131072 (constant (F := F) S_ .f32 0x3F800000#32)) := by
  after_results
  simp only [ofBuf_toBuf, ofBuf_v17, ofBuf_v32, ofBuf_v33, toBuf_v0]
  rfl

attribute [local irreducible] Host.scatter concatenate broadcastInDim constant in
/-- The whole last stretch: the result buffer holds the adjacency with a one written at every listed edge. -/
theorem host3_v0 (V : Valuation τ sig (Elt F)) :
    after hostOps3 V (main_v0 : DevRef τ sig) = kerTail (V (main_call0_v17 : DevRef τ sig)) (V (main_arg1 : DevRef τ sig)) := by
  rw [hostOps3_split, StableHlo.after_append, host3b_v0, host3a_v17, host3a_v32, host3a_v33]
  rfl

end Cert.KernelIdeal.HandVal

end
-- ==== Proof.KI.Chain.lean ====
/-
  The kernel program's result as a function of the launch contents: the buffer contents at every boundary of the run,
  read back one item at a time. A host stretch leaves each buffer it does not write as it was and each result at the
  named function of what it read; a region leaves its output array at the region's value of its input arrays as
  entered and every other buffer as entered. Composed: the result buffer holds the scatter of ones over the adjacency
  of the embeddings of the first layer of the arguments.
-/
import proofs.«166763_j5368709120801_2_alg».proof.Proof.Gen.KernelIdeal.Launch
import proofs.«166763_j5368709120801_2_alg».proof.Proof.Gen.KernelIdeal.Regions
import proofs.«166763_j5368709120801_2_alg».proof.Proof.KI.Fold
import proofs.«166763_j5368709120801_2_alg».proof.Proof.KI.Val0
import proofs.«166763_j5368709120801_2_alg».proof.Proof.KI.Val1
import proofs.«166763_j5368709120801_2_alg».proof.Proof.KI.Val2
import proofs.«166763_j5368709120801_2_alg».proof.Proof.Ref.Run
import proofs.«166763_j5368709120801_2_alg».proof.Proof.KI.Tail
import proofs.«166763_j5368709120801_2_alg».proof.Proof.KI.Stretch
import Idealize.ShloMosaic.Lib.StableHlo.Run

set_option maxRecDepth 16384

noncomputable section

namespace Cert.KernelIdeal.HandVal

open Idealize.ShloMosaic Idealize.ShloMosaic.TcCoe
open Idealize.SL Idealize.SL.Sem
open Cert.KernelIdeal Cert.KernelIdeal.Gen
open Cert.ReferenceIdeal.Hand (refMean refInv refTail)

variable (m : (ℓ : Loc nD τ sig) → Buf (Elt Ideal) ℓ) (c : Dev nD)

/-! ## Region 0's entry: the launch contents through the first stretch -/

theorem e1_arg0 : Hand.V1 m c main_arg0 = m ((c : Thread nD τ).loc main_arg0) :=
  StableHlo.after_of_writes_sub (W := hostOps0_W) (r := main_arg0) hostOps0 _ hostOps0_writes (by decide)
theorem e1_arg1 : Hand.V1 m c main_arg1 = m ((c : Thread nD τ).loc main_arg1) :=
  StableHlo.after_of_writes_sub (W := hostOps0_W) (r := main_arg1) hostOps0 _ hostOps0_writes (by decide)
theorem e1_v0 : Hand.V1 m c main_call0_v0
    = transpose S256x512 [1, 0] (m ((c : Thread nD τ).loc main_arg2)) transposes_S512x256_S256x512_1_0 := host0_v0 (Hand.W0 m c)
theorem e1_v1 : Hand.V1 m c main_call0_v1
    = transpose S512x128 [1, 0] (m ((c : Thread nD τ).loc main_arg6)) transposes_S128x512_S512x128_1_0 := host0_v1 (Hand.W0 m c)
theorem e1_v2 : Hand.V1 m c main_call0_v2 = shapeCast S1x512 (m ((c : Thread nD τ).loc main_arg3)) shapeCasts_S512_S1x512 :=
  host0_v2 (Hand.W0 m c)
theorem e1_v3 : Hand.V1 m c main_call0_v3 = shapeCast S1x512 (m ((c : Thread nD τ).loc main_arg4)) shapeCasts_S512_S1x512 :=
  host0_v3 (Hand.W0 m c)
theorem e1_v4 : Hand.V1 m c main_call0_v4 = shapeCast S1x512 (m ((c : Thread nD τ).loc main_arg5)) shapeCasts_S512_S1x512 :=
  host0_v4 (Hand.W0 m c)
theorem e1_v5 : Hand.V1 m c main_call0_v5 = shapeCast S1x128 (m ((c : Thread nD τ).loc main_arg7)) shapeCasts_S128_S1x128 :=
  host0_v5 (Hand.W0 m c)

/-! ## Region 0's exit: the first linear layer -/

/-- The first linear layer of the launch contents: x · W1ᵀ + b1. -/
def hK : FVec Ideal S8192x512 .f32 :=
  G0 (m ((c : Thread nD τ).loc main_arg0))
    (transpose S256x512 [1, 0] (m ((c : Thread nD τ).loc main_arg2)) transposes_S512x256_S256x512_1_0)
    (shapeCast S1x512 (m ((c : Thread nD τ).loc main_arg3)) shapeCasts_S512_S1x512)

theorem e2_v6 : Hand.V2 m c main_call0_v6 = hK m c := by
  have h := (Hand.W2_arr m c 3).trans (final0 (Hand.V1 m) c)
  rw [e1_arg0, e1_v0, e1_v2] at h
  exact h
/-- A buffer that is no array of region 0 leaves it as entered. -/
theorem e2_of (b : Ref sig .tc) (hb : ∀ w, Pipeline.arrRef spec0 w ≠ b) : Hand.V2 m c b = Hand.V1 m c b :=
  Hand.W2_of_ne m c b hb

/-! ## Region 1's entry: through the second stretch -/

/-- A buffer the second stretch does not write and that is no array of region 0 is as region 0 was entered. -/
theorem e3_of (b : Ref sig .tc) (h1 : b ∉ hostOps1_W) (hb : ∀ w, Pipeline.arrRef spec0 w ≠ b) : Hand.V3 m c b = Hand.V1 m c b :=
  (StableHlo.after_of_writes_sub (W := hostOps1_W) (r := b) hostOps1 _ hostOps1_writes h1).trans (e2_of m c b hb)
theorem e3_v6 : Hand.V3 m c main_call0_v6 = hK m c :=
  (StableHlo.after_of_writes_sub (W := hostOps1_W) (r := main_call0_v6) hostOps1 _ hostOps1_writes (by decide)).trans (e2_v6 m c)
theorem e3_v14 : Hand.V3 m c main_call0_v14 = shapeCast S1x512 (refMean (hK m c)) shapeCasts_S512_S1x512 :=
  (host1_v14 (Hand.W2 m c)).trans (congrArg (fun h => shapeCast S1x512 (refMean h) shapeCasts_S512_S1x512) (e2_v6 m c))
theorem e3_v15 : Hand.V3 m c main_call0_v15 = shapeCast S1x512 (refInv (hK m c)) shapeCasts_S512_S1x512 :=
  (host1_v15 (Hand.W2 m c)).trans (congrArg (fun h => shapeCast S1x512 (refInv h) shapeCasts_S512_S1x512) (e2_v6 m c))
theorem e3_v3 : Hand.V3 m c main_call0_v3 = shapeCast S1x512 (m ((c : Thread nD τ).loc main_arg4)) shapeCasts_S512_S1x512 :=
  (e3_of m c main_call0_v3 (by decide) (by decide)).trans (e1_v3 m c)
theorem e3_v4 : Hand.V3 m c main_call0_v4 = shapeCast S1x512 (m ((c : Thread nD τ).loc main_arg5)) shapeCasts_S512_S1x512 :=
  (e3_of m c main_call0_v4 (by decide) (by decide)).trans (e1_v4 m c)
theorem e3_v1 : Hand.V3 m c main_call0_v1
    = transpose S512x128 [1, 0] (m ((c : Thread nD τ).loc main_arg6)) transposes_S128x512_S512x128_1_0 :=
  (e3_of m c main_call0_v1 (by decide) (by decide)).trans (e1_v1 m c)
theorem e3_v5 : Hand.V3 m c main_call0_v5 = shapeCast S1x128 (m ((c : Thread nD τ).loc main_arg7)) shapeCasts_S128_S1x128 :=
  (e3_of m c main_call0_v5 (by decide) (by decide)).trans (e1_v5 m c)
theorem e3_arg1 : Hand.V3 m c main_arg1 = m ((c : Thread nD τ).loc main_arg1) :=
  (e3_of m c main_arg1 (by decide) (by decide)).trans (e1_arg1 m c)

/-! ## Region 1's exit: the embeddings -/

/-- The embeddings of the launch contents. -/
def embK : FVec Ideal S8192x128 .f32 :=
  G1 (hK m c) (shapeCast S1x512 (refMean (hK m c)) shapeCasts_S512_S1x512)
    (shapeCast S1x512 (refInv (hK m c)) shapeCasts_S512_S1x512)
    (shapeCast S1x512 (m ((c : Thread nD τ).loc main_arg4)) shapeCasts_S512_S1x512)
    (shapeCast S1x512 (m ((c : Thread nD τ).loc main_arg5)) shapeCasts_S512_S1x512)
    (transpose S512x128 [1, 0] (m ((c : Thread nD τ).loc main_arg6)) transposes_S128x512_S512x128_1_0)
    (shapeCast S1x128 (m ((c : Thread nD τ).loc main_arg7)) shapeCasts_S128_S1x128)

theorem e4_v16 : Hand.V4 m c main_call0_v16 = embK m c := by
  have h := (Hand.W4_arr m c 7).trans (final1 (Hand.V3 m) c)
  rw [e3_v6, e3_v14, e3_v15, e3_v3, e3_v4, e3_v1, e3_v5] at h
  exact h
theorem e4_arg1 : Hand.V4 m c main_arg1 = m ((c : Thread nD τ).loc main_arg1) :=
  (Hand.W4_of_ne m c main_arg1 (by decide)).trans (e3_arg1 m c)

/-! ## Region 2's exit: the adjacency; and the end -/

theorem e5_v17 : Hand.V5 m c main_call0_v17 = G2 (embK m c) := by
  have h := (Hand.W5_out m c).trans (final2 (Hand.V4 m) c)
  rw [e4_v16] at h
  exact h
theorem e5_arg1 : Hand.V5 m c main_arg1 = m ((c : Thread nD τ).loc main_arg1) :=
  (Hand.W5_of_ne m c main_arg1 (by decide)).trans (e4_arg1 m c)

/-- At the end the result buffer holds the scatter of ones, at the listed edges, over the adjacency of the embeddings
    of the first layer of the launch contents. -/
theorem out_eq : Hand.W6 (F := Ideal) m c (Proc.devRef .tc main_v0)
    = refTail (G2 (embK m c)) (m ((c : Thread nD τ).loc main_arg1)) :=
  ((host3_v0 (Hand.W5 m c)).trans (congrArg₂ kerTail (e5_v17 m c) (e5_arg1 m c))).trans (kerTail_eq _ _)

/-- The same with the first layer and the embeddings written out. -/
theorem out_eq_full : Hand.W6 (F := Ideal) m c (Proc.devRef .tc main_v0)
    = refTail
        (G2 (G1 (G0 (m ((c : Thread nD τ).loc main_arg0))
      (transpose S256x512 [1, 0] (m ((c : Thread nD τ).loc main_arg2)) transposes_S512x256_S256x512_1_0)
      (shapeCast S1x512 (m ((c : Thread nD τ).loc main_arg3)) shapeCasts_S512_S1x512))
          (shapeCast S1x512 (refMean (G0 (m ((c : Thread nD τ).loc main_arg0))
      (transpose S256x512 [1, 0] (m ((c : Thread nD τ).loc main_arg2)) transposes_S512x256_S256x512_1_0)
      (shapeCast S1x512 (m ((c : Thread nD τ).loc main_arg3)) shapeCasts_S512_S1x512))) shapeCasts_S512_S1x512)
          (shapeCast S1x512 (refInv (G0 (m ((c : Thread nD τ).loc main_arg0))
      (transpose S256x512 [1, 0] (m ((c : Thread nD τ).loc main_arg2)) transposes_S512x256_S256x512_1_0)
      (shapeCast S1x512 (m ((c : Thread nD τ).loc main_arg3)) shapeCasts_S512_S1x512))) shapeCasts_S512_S1x512)
          (shapeCast S1x512 (m ((c : Thread nD τ).loc main_arg4)) shapeCasts_S512_S1x512)
          (shapeCast S1x512 (m ((c : Thread nD τ).loc main_arg5)) shapeCasts_S512_S1x512)
          (transpose S512x128 [1, 0] (m ((c : Thread nD τ).loc main_arg6)) transposes_S128x512_S512x128_1_0)
          (shapeCast S1x128 (m ((c : Thread nD τ).loc main_arg7)) shapeCasts_S128_S1x128)))
        (m ((c : Thread nD τ).loc main_arg1)) :=
  out_eq m c

end Cert.KernelIdeal.HandVal

end
-- ==== Proof.Ref.Read.lean ====
/- The reference's dense adjacency read at an entry, at the ideal values: the logistic function of the two
   rows' inner product where it is at least one half strictly above the diagonal, zero elsewhere. -/
import proofs.«166763_j5368709120801_2_alg».proof.Proof.Ref.Run
import proofs.«166763_j5368709120801_2_alg».proof.Proof.LibHostDot
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.HandRead

open Cert.ReferenceIdeal Cert.ReferenceIdeal.Gen Cert.ReferenceIdeal.Hand Idealize.ShloMosaic Idealize.ShloMosaic.ValueIdx
open scoped BigOperators

/-- A float scalar broadcast to the square array reads its value at every entry. -/
theorem bcastF_apply (b : BitVec 32) (i : S8192x8192.Idx) :
    broadcastInDim S8192x8192 ![] bcast_S_S8192x8192 (constant (F := Ideal) S_ .f32 b) i = Scalar.ofBits (F := Ideal) .f32 b := by
  rw [broadcastInDim_scalar_apply]; rfl

/-- An integer scalar broadcast to the square array reads its word at every entry. -/
theorem bcastI_apply {w : Nat} (b : BitVec w) (i : S8192x8192.Idx) :
    broadcastInDim S8192x8192 ![] bcast_S_S8192x8192 (constantI S_ w b) i = b := by
  rw [broadcastInDim_scalar_apply]; rfl

/-- On 32-bit words: choosing 0 where x + 0 ≥ y (signed) and 1 elsewhere is the bit of x < y (signed). -/
theorem triu_word (x y : BitVec 32) :
    Scalar.select (IntOp.cmpi .sge (IntOp.addi x 0#32) y) (0#1) (1#1) = IntOp.cmpi .slt x y := by
  have h0 : IntOp.addi x 0#32 = x := by simp [IntOp.addi]
  rw [h0]
  simp only [IntOp.cmpi, Scalar.select, BitVec.sle_eq_not_slt]
  cases x.slt y <;> decide

/-- The score at (P, Q) is the inner product of rows P and Q of the embedding. -/
theorem refScore_apply (emb : FVec Ideal S8192x128 .f32) (P Q : Fin 8192) :
    refScore (F := Ideal) emb (ix2 P Q) = ∑ k : Fin 128, emb (ix2 P k) * emb (ix2 Q k) := by
  show Host.dotGeneral (DotDims.plain 8192 128 8192) none emb
      (transpose S128x8192 [1, 0] emb transposes_S8192x128_S128x8192_1_0) (ix2 P Q) = _
  rw [Cert.HostDot.dotGeneral_plain_apply]
  refine Finset.sum_congr rfl fun k _ => ?_
  rw [transpose_ix2_apply]

/-- The spelled-out 1 / (1 + exp (−s)) at an entry is the logistic function of the score there. -/
theorem refProb_apply (emb : FVec Ideal S8192x128 .f32) (P Q : Fin 8192) :
    refProb (F := Ideal) emb (ix2 P Q) = FloatOps.logistic (refScore (F := Ideal) emb (ix2 P Q)) := by
  show FloatOps.hostDivf (broadcastInDim S8192x8192 ![] bcast_S_S8192x8192 (constant (F := Ideal) S_ .f32 0x3F800000#32) (ix2 P Q))
      (FloatOps.addf (broadcastInDim S8192x8192 ![] bcast_S_S8192x8192 (constant (F := Ideal) S_ .f32 0x3F800000#32) (ix2 P Q))
        (FloatOps.hostUnary .exp (FloatOps.hostNegf (refScore (F := Ideal) emb (ix2 P Q))))) = _
  rw [bcastF_apply]
  have h1 : Scalar.ofBits (F := Ideal) .f32 0x3F800000#32 = (1 : Ideal .f32) := Ideal.ofBits_one_f32
  rw [h1]
  rfl

/-- The triangle mask at (P, Q) is the bit of P < Q. -/
theorem triuMask_apply (P Q : Fin 8192) :
    triuMask (ix2 P Q) = IntOp.cmpi .slt (BitVec.ofNat 32 P.val) (BitVec.ofNat 32 Q.val) := by
  show Scalar.select (IntOp.cmpi .sge (IntOp.addi (BitVec.ofNat 32 P.val) (broadcastInDim S8192x8192 ![] bcast_S_S8192x8192 (constantI S_ 32 0#32) (ix2 P Q)))
        (BitVec.ofNat 32 Q.val)) (broadcastInDim S8192x8192 ![] bcast_S_S8192x8192 (constantI S_ 1 0#1) (ix2 P Q)) (broadcastInDim S8192x8192 ![] bcast_S_S8192x8192 (constantI S_ 1 1#1) (ix2 P Q)) = _
  rw [bcastI_apply, bcastI_apply, bcastI_apply]
  exact triu_word _ _

/-- The dense adjacency at (P, Q): the logistic function of the rows' inner product where P < Q and that
    value is at least one half, zero elsewhere. -/
theorem refAdj_apply (emb : FVec Ideal S8192x128 .f32) (P Q : Fin 8192) :
    Cert.ReferenceIdeal.Hand.refAdj (F := Ideal) emb (ix2 P Q)
      = Scalar.select (IntOp.andi (IntOp.cmpi .slt (BitVec.ofNat 32 P.val) (BitVec.ofNat 32 Q.val))
            (FloatOps.cmpf .oge (FloatOps.logistic (∑ k : Fin 128, emb (ix2 P k) * emb (ix2 Q k))) (Scalar.ofBits (F := Ideal) .f32 0x3F000000#32)))
          (FloatOps.logistic (∑ k : Fin 128, emb (ix2 P k) * emb (ix2 Q k))) (Scalar.ofBits (F := Ideal) .f32 0x00000000#32) := by
  show Scalar.select (IntOp.andi (triuMask (ix2 P Q))
        (FloatOps.cmpf .oge (refProb (F := Ideal) emb (ix2 P Q)) (broadcastInDim S8192x8192 ![] bcast_S_S8192x8192 (constant (F := Ideal) S_ .f32 0x3F000000#32) (ix2 P Q))))
      (refProb (F := Ideal) emb (ix2 P Q)) (broadcastInDim S8192x8192 ![] bcast_S_S8192x8192 (constant (F := Ideal) S_ .f32 0x00000000#32) (ix2 P Q)) = _
  rw [triuMask_apply, refProb_apply, refScore_apply, bcastF_apply, bcastF_apply]

end Cert.ReferenceIdeal.HandRead

end
-- ==== Proof.Algebraic.lean ====
/-
  The algebraic claim: run from memories that agree on the eight arguments, the kernel program and the reference both
  end with their result at one and the same array — the reference's five functions (first layer, column statistics,
  embeddings, thresholded upper-triangular adjacency, scattered edges) of the arguments. The kernel program's result is
  read off its run stage by stage: each region's array is a whole-array function of the region's inputs, the host
  stretches between them are the reference's own operations, and the three bridges identify the stages.
-/
import proofs.«166763_j5368709120801_2_alg».proof.Defs
import proofs.«166763_j5368709120801_2_alg».proof.Proof.KI.Run
import proofs.«166763_j5368709120801_2_alg».proof.Proof.KI.Val2
import proofs.«166763_j5368709120801_2_alg».proof.Proof.KI.Bridge
import proofs.«166763_j5368709120801_2_alg».proof.Proof.Ref.Run
import proofs.«166763_j5368709120801_2_alg».proof.Proof.KI.Chain
import proofs.«166763_j5368709120801_2_alg».proof.Proof.Ref.Read

set_option maxRecDepth 16384

noncomputable section

namespace Cert.KernelIdeal.HandVal

open Idealize.ShloMosaic Idealize.ShloMosaic.TcCoe Idealize.ShloMosaic.ValueIdx Idealize.SL.Sem
open Cert.KernelIdeal Cert.KernelIdeal.Gen Cert.KernelIdeal.Hand
open Cert.ReferenceIdeal.Hand (refH refEmb refAdj refTail refMean refInv)

/-- The adjacency before the scatter: the kernel program's array is the reference's. -/
theorem bridge2 (emb : FVec Ideal S8192x128 .f32) : G2 emb = refAdj (F := Ideal) emb := by
  funext i
  obtain ⟨P, Q, rfl⟩ : ∃ (P : Fin 8192) (Q : Fin 8192), i = ix2 P Q := ⟨i 0, i 1, eq_ix2 i⟩
  exact (Cert.ReferenceIdeal.HandRead.refAdj_apply emb P Q).symm

/-- The kernel program's result buffer after its run: the reference's five functions of the launch arguments. -/
theorem kernel_result (m : (ℓ : Loc nD τ sig) → Buf (Elt Ideal) ℓ) (c : Dev nD) :
    W6 (F := Ideal) m c (Proc.devRef .tc main_v0)
      = refTail (F := Ideal) (refAdj (refEmb (refH (m ((c : Thread nD τ).loc main_arg0)) (m ((c : Thread nD τ).loc main_arg2)) (m ((c : Thread nD τ).loc main_arg3)))
          (m ((c : Thread nD τ).loc main_arg4)) (m ((c : Thread nD τ).loc main_arg5)) (m ((c : Thread nD τ).loc main_arg6)) (m ((c : Thread nD τ).loc main_arg7))))
          (m ((c : Thread nD τ).loc main_arg1)) := by
  rw [out_eq_full m c, bridge0, bridge1, bridge2]

end Cert.KernelIdeal.HandVal

namespace Cert.Proof.Claims

open Idealize.ShloMosaic Idealize.ShloMosaic.TcCoe Idealize.SL.Sem
open Cert.ReferenceIdeal.Hand (refH refEmb refAdj refTail)

/-- Both programs end with the same result array, and their arguments unchanged. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => refTail (F := Ideal) (refAdj (refEmb (refH (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))))
      (m ((c.tc : Thread Cert.KernelIdeal.nD Cert.KernelIdeal.τ).loc Cert.KernelIdeal.main_arg1)), ?_, ?_⟩
  · refine (θ_run (Cert.KernelIdeal.defs (F := Ideal)) _ _).mono (fun r h c => ⟨?_, ?_⟩) (Cert.KernelIdeal.Hand.run_all (F := Ideal) m ρ)
    · exact (h c _ (Cert.KernelIdeal.Hand.mem_uc Cert.KernelIdeal.main_v0 (by decide))).trans (Cert.KernelIdeal.HandVal.kernel_result m c)
    · exact ⟨(h c _ (Cert.KernelIdeal.Hand.mem_uc Cert.KernelIdeal.main_arg0 (by decide))).trans (Cert.KernelIdeal.Hand.W6_main_arg0 m c),
        (h c _ (Cert.KernelIdeal.Hand.mem_uc Cert.KernelIdeal.main_arg1 (by decide))).trans (Cert.KernelIdeal.Hand.W6_main_arg1 m c),
        (h c _ (Cert.KernelIdeal.Hand.mem_uc Cert.KernelIdeal.main_arg2 (by decide))).trans (Cert.KernelIdeal.Hand.W6_main_arg2 m c),
        (h c _ (Cert.KernelIdeal.Hand.mem_uc Cert.KernelIdeal.main_arg3 (by decide))).trans (Cert.KernelIdeal.Hand.W6_main_arg3 m c),
        (h c _ (Cert.KernelIdeal.Hand.mem_uc Cert.KernelIdeal.main_arg4 (by decide))).trans (Cert.KernelIdeal.Hand.W6_main_arg4 m c),
        (h c _ (Cert.KernelIdeal.Hand.mem_uc Cert.KernelIdeal.main_arg5 (by decide))).trans (Cert.KernelIdeal.Hand.W6_main_arg5 m c),
        (h c _ (Cert.KernelIdeal.Hand.mem_uc Cert.KernelIdeal.main_arg6 (by decide))).trans (Cert.KernelIdeal.Hand.W6_main_arg6 m c),
        (h c _ (Cert.KernelIdeal.Hand.mem_uc Cert.KernelIdeal.main_arg7 (by decide))).trans (Cert.KernelIdeal.Hand.W6_main_arg7 m c)⟩
  · refine (θ_run (Cert.ReferenceIdeal.defs (F := Ideal)) _ _).mono (fun r h c => ⟨?_, (h c).2⟩) (Cert.ReferenceIdeal.Hand.run (F := Ideal) m' ρ')
    rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2]

end Cert.Proof.Claims

end
-- ==== Proof.lean ====
/-
  A graph-structure learner's dense adjacency: a two-layer perceptron with batch normalisation gives every node an
  embedding, every pair of nodes the sigmoid of the inner product of their embeddings, kept strictly above the diagonal
  where it is at least one half, and a one is written at every listed edge.

  The kernel program computes it in three tiled kernel regions — the first linear layer by row tile, the normalised and
  rectified second layer by row tile, the thresholded pairwise scores by 512 × 2048 tile — with the column statistics and the
  scatter of the edges as host operations between and after them; the reference computes the same with host operations
  only. On the extended reals the two agree entry by entry: a tile of a matrix product is the product of the tile's rows, a
  sigmoid is the one function however it is spelled, the triangle test on global row and column words is the reference's
  mask, and the statistics and the scatter are the same operations of equal arrays. No law that fails at an infinity is
  used, so the precondition is never opened.

  The frames: each program runs to the end, faults nowhere and leaves its arguments unchanged — the kernel programs as
  three pipelined regions among host stretches (the third region's two input windows read one array, each holding half
  of it), the reference as a list of host operations. The kernel's idealisation rewrote nothing.
-/
import proofs.«166763_j5368709120801_2_alg».proof.Defs
import proofs.«166763_j5368709120801_2_alg».proof.Proof.Gen.Kernel
import proofs.«166763_j5368709120801_2_alg».proof.Proof.Gen.KernelIdeal
import proofs.«166763_j5368709120801_2_alg».proof.Proof.Gen.ReferenceIdeal
import proofs.«166763_j5368709120801_2_alg».proof.Proof.Gen.Pre_finite_inputs
import proofs.«166763_j5368709120801_2_alg».proof.Proof.K.Run
import proofs.«166763_j5368709120801_2_alg».proof.Proof.KI.Run
import proofs.«166763_j5368709120801_2_alg».proof.Proof.Ref.Run
import proofs.«166763_j5368709120801_2_alg».proof.Proof.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.ReferenceIdeal.Hand.frame,
  trivial,
  Cert.Proof.Claims.algebraic⟩

end Cert.Proof

end
